-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x2304 : Shape := ⟨2, ![768, 2304]⟩
abbrev S2304 : Shape := ⟨1, ![2304]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_

variable [Facts]

def fn {F : FTy → Type} [FloatOps F] (main_arg0 : FVec F S4x2048x768 .f32) (main_arg1 : FVec F S768x2304 .f32) (main_arg2 : FVec F S2304 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  main_v13
-- ==== Kernel.lean ====
abbrev S4x2048x768 : Shape := ⟨3, ![4, 2048, 768]⟩
abbrev S768x2304 : Shape := ⟨2, ![768, 2304]⟩
abbrev S2304 : Shape := ⟨1, ![2304]⟩
abbrev S8192x768 : Shape := ⟨2, ![8192, 768]⟩
abbrev S8192x2304 : Shape := ⟨2, ![8192, 2304]⟩
abbrev S512x768 : Shape := ⟨2, ![512, 768]⟩
abbrev S512x2304 : Shape := ⟨2, ![512, 2304]⟩
abbrev S1x2304 : Shape := ⟨2, ![1, 2304]⟩
abbrev S4x2048x2304 : Shape := ⟨3, ![4, 2048, 2304]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x768, .f32⟩
  | .hbm, ⟨1, _⟩ => ⟨S768x2304, .f32⟩
  | .hbm, ⟨2, _⟩ => ⟨S2304, .f32⟩
  | .hbm, ⟨3, _⟩ => ⟨S8192x768, .f32⟩
  | .hbm, ⟨4, _⟩ => ⟨S8192x2304, .f32⟩
  | .hbm, ⟨5, _⟩ => ⟨S4x2048x2304, .f32⟩
  | .hbm, ⟨6, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .f32⟩
  | .local _ .vmem, ⟨3, _⟩ => ⟨S2304, .f32⟩
  | .local _ .vmem, ⟨4, _⟩ => ⟨S512x2304, .f32⟩
  | .local _ .vmem, ⟨5, _⟩ => ⟨S512x2304, .f32⟩
  | .local _ .vmem, ⟨6, _⟩ => ⟨S1x512x128, .f32⟩
  | .local _ .vmem, ⟨7, _⟩ => ⟨S1x512x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x512x128, .f32⟩
  | .local _ .vmem, ⟨13, _⟩ => ⟨S1x512x128, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 6, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S4x2048x768_S8192x768 : S4x2048x768.ShapeCasts S8192x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  inb_S2304_S2304_0 : ∀ a, (![0] : Fin 1 → Nat) a + S2304.size a ≤ S2304.size a
  h_S2304 : 0 < S2304.numel
  shapeCasts_S2304_S1x2304 : S2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  shapeCasts_S8192x2304_S4x2048x2304 : S8192x2304.ShapeCasts S4x2048x2304
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  dot_S512x768_S768x2304_S512x2304_1_0_0_1_n_n_wf : DotDims.WF S512x768 S768x2304 S512x2304 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S8192x2304.size a
  hwx0_3 : ∀ i : grid0.Coords, EltTy.bits .f32 = 32 ∨ (Rect.block (s := S8192x2304) S512x2304.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x2304.size a
  hwx1_0 : ∀ i : grid1.Coords, EltTy.bits .f32 = 32 ∨ (Rect.block (s := S4x2048x2304) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x2304.size a
  hwx1_1 : ∀ i : grid1.Coords, EltTy.bits .f32 = 32 ∨ (Rect.block (s := S4x2048x2304) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x2304.size a
  hwx1_2 : ∀ i : grid1.Coords, EltTy.bits .f32 = 32 ∨ (Rect.block (s := S4x2048x2304) S1x2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x768.size a
  hwx1_3 : ∀ i : grid1.Coords, EltTy.bits .f32 = 32 ∨ (Rect.block (s := S4x2048x768) S1x512x128.size (cc1_transform_3 i) (hinb1_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x768 : Shape := ⟨3, ![4, 2048, 768]⟩
abbrev S768x2304 : Shape := ⟨2, ![768, 2304]⟩
abbrev S2304 : Shape := ⟨1, ![2304]⟩
abbrev S4x2048x2304 : Shape := ⟨3, ![4, 2048, 2304]⟩
abbrev S1x1x2304 : Shape := ⟨3, ![1, 1, 2304]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x2304, .f32⟩
  | .hbm, ⟨2, _⟩ => ⟨S2304, .f32⟩
  | .hbm, ⟨3, _⟩ => ⟨S4x2048x2304, .f32⟩
  | .hbm, ⟨4, _⟩ => ⟨S1x1x2304, .f32⟩
  | .hbm, ⟨5, _⟩ => ⟨S4x2048x2304, .f32⟩
  | .hbm, ⟨6, _⟩ => ⟨S4x2048x2304, .f32⟩
  | .hbm, ⟨7, _⟩ => ⟨S4x2048x768, .f32⟩
  | .hbm, ⟨8, _⟩ => ⟨S4x2048x768, .f32⟩
  | .hbm, ⟨9, _⟩ => ⟨S4x2048x768, .f32⟩
  | .hbm, ⟨10, _⟩ => ⟨S4x2048x12x64, .f32⟩
  | .hbm, ⟨11, _⟩ => ⟨S4x12x2048x64, .f32⟩
  | .hbm, ⟨12, _⟩ => ⟨S4x2048x12x64, .f32⟩
  | .hbm, ⟨13, _⟩ => ⟨S4x12x2048x64, .f32⟩
  | .hbm, ⟨14, _⟩ => ⟨S4x2048x12x64, .f32⟩
  | .hbm, ⟨15, _⟩ => ⟨S4x12x2048x64, .f32⟩
  | .hbm, ⟨16, _⟩ => ⟨S4x12x2048x2048, .f32⟩
  | .hbm, ⟨17, _⟩ => ⟨S_, .f32⟩
  | .hbm, ⟨18, _⟩ => ⟨S4x12x2048x2048, .f32⟩
  | .hbm, ⟨19, _⟩ => ⟨S4x12x2048x2048, .f32⟩
  | .hbm, ⟨20, _⟩ => ⟨S_, .f32⟩
  | .hbm, ⟨21, _⟩ => ⟨S4x12x2048, .f32⟩
  | .hbm, ⟨22, _⟩ => ⟨S_, .f32⟩
  | .hbm, ⟨23, _⟩ => ⟨S4x12x2048, .f32⟩
  | .hbm, ⟨24, _⟩ => ⟨S4x12x2048, .f32⟩
  | .hbm, ⟨25, _⟩ => ⟨S4x12x2048x1, .f32⟩
  | .hbm, ⟨26, _⟩ => ⟨S4x12x2048x2048, .f32⟩
  | .hbm, ⟨27, _⟩ => ⟨S4x12x2048x2048, .f32⟩
  | .hbm, ⟨28, _⟩ => ⟨S4x12x2048x2048, .f32⟩
  | .hbm, ⟨29, _⟩ => ⟨S_, .f32⟩
  | .hbm, ⟨30, _⟩ => ⟨S4x12x2048, .f32⟩
  | .hbm, ⟨31, _⟩ => ⟨S4x12x2048x1, .f32⟩
  | .hbm, ⟨32, _⟩ => ⟨S4x12x2048x2048, .f32⟩
  | .hbm, ⟨33, _⟩ => ⟨S4x12x2048x2048, .f32⟩
  | .hbm, ⟨34, _⟩ => ⟨S4x12x2048x64, .f32⟩
  | .hbm, ⟨35, _⟩ => ⟨S4x2048x12x64, .f32⟩
  | .hbm, ⟨36, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S4x2048x2304_0_1_2 : S1x1x2304.BroadcastsInDim S4x2048x2304 (![0, 1, 2] : Fin 3 → Fin S4x2048x2304.rank)
  slices_S4x2048x2304_S4x2048x768_0_0_0 : S4x2048x2304.Slices ![0, 0, 0] S4x2048x768
  slices_S4x2048x2304_S4x2048x768_0_0_768 : S4x2048x2304.Slices ![0, 0, 768] S4x2048x768
  slices_S4x2048x2304_S4x2048x768_0_0_1536 : S4x2048x2304.Slices ![0, 0, 1536] S4x2048x768
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S4x2048x768_S768x2304_S4x2048x2304_2_0_01_1_n_n_wf : DotDims.WF S4x2048x768 S768x2304 S4x2048x2304 [2] [0] [0, 1] [1] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x2048x768_S768x2304_S4x2048x2304_2_0_01_1_n_n : DotDims S4x2048x768 S768x2304 S4x2048x2304 where
  lhsContracting := [2]
  rhsContracting := [0]
  lhsNonContracting := [0, 1]
  rhsNonContracting := [1]
  lhsBatch := []
  rhsBatch := []
  wf := dot_S4x2048x768_S768x2304_S4x2048x2304_2_0_01_1_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.K0.lean ====
/-
  Region 0, the projection kernel: at each of its 16 grid points the body loads a block of 512 input rows,
  the whole weight matrix and the whole bias row, and stores 512 projected rows. This module states what
  the output window's staging buffer holds after the body at a point (the one store's value over the
  loaded blocks), proves the body's triple, and gives the pipeline's proof data and body obligation at any
  contents `V` the region is entered from. The body also loads the output buffer before storing into it;
  the loaded value is unused, so the buffer may hold anything beforehand.
-/
import proofs.«155869_j9405978378411_2_alg».proof.Proof.Gen.Kernel.Launch
import proofs.«155869_j9405978378411_2_alg».proof.Proof.Gen.Kernel.Skeleton
import proofs.«155869_j9405978378411_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each the whole of its buffer. -/
abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S2304 := Rect.unit (s := S2304) ![0] S2304.size inb_S2304_S2304_0
abbrev r0_3 : Rect S512x2304 := Rect.unit (s := S512x2304) ![0, 0] S512x2304.size inb_S512x2304_S512x2304_0_0

/-- The output window's staging buffer after the body: its one store, of the projected rows of the loaded blocks. -/
def out0_3 (x0 : Vec F S512x768 .f32) (x1 : Vec F S768x2304 .f32) (x2 : Vec F S2304 .f32) : Vec F S512x2304 .f32 :=
  View.canon [⟨r0_3, k0_pay1 (View.ld x0 r0_0) (View.ld x1 r0_1) (View.ld x2 r0_2)⟩]

/-- The one store covers the buffer. -/
theorem cover0_3 (p0 : Vec F S512x2304 .f32) (y : S512x2304.Idx) :
    ∃ pc ∈ ([⟨r0_3, p0⟩] : List (View.Piece (Elt F) S512x2304 .f32)), y ∈ pc.1.set :=
  View.cover_of_tiled [⟨r0_3, p0⟩] S512x2304.size (by rfl) y

set_option maxHeartbeats 1000000 in
/-- The body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S512x768 .f32) (harg1 : arg1.IsWhole)
    (arg2 : Memref sig .tc .vmem S768x2304 .f32) (harg2 : arg2.IsWhole) (arg3 : Memref sig .tc .vmem S2304 .f32) (harg3 : arg3.IsWhole)
    (arg4 : Memref sig .tc .vmem S512x2304 .f32) (harg4 : arg4.IsWhole)
    (x0 : Vec F S512x768 .f32) (x1 : Vec F S768x2304 .f32) (x2 : Vec F S2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K1.lean ====
/-
  Region 1, the attention kernel: its grid has 4 × 6 × 4 points (sequence, pair of heads, tile of 512 query
  rows). At a point the body loads a block of 512 query rows and the 2048 key rows and 2048 value rows of
  the same pair of heads — three windows onto ONE array, the projected rows — and stores 512 output rows of
  128 columns. This module states what the output window's staging buffer holds after the body (the one
  store's value over the three loaded blocks), proves the body's triple, and gives the pipeline's proof data
  and body obligation at any contents `V` the region is entered from. Each of the three input windows holds
  the shared array at a share of its own (a half, a quarter, a quarter); the output's array is held whole.
-/
import proofs.«155869_j9405978378411_2_alg».proof.Proof.Gen.Kernel.Launch
import proofs.«155869_j9405978378411_2_alg».proof.Proof.Gen.Kernel.Skeleton
import proofs.«155869_j9405978378411_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each the whole of its buffer. -/
abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0

/-- The output window's staging buffer after the body: its one store, the two heads' outputs side by side,
    computed from the loaded query, key and value blocks. -/
def out1_3 (x0 : Vec F S1x512x128 .f32) (x1 : Vec F S1x2048x128 .f32) (x2 : Vec F S1x2048x128 .f32) : Vec F S1x512x128 .f32 :=
  View.canon [⟨r1_q, k1_pay1 (k1_pay5 (View.ld x0 r1_q) (View.ld x1 r1_kv) (View.ld x2 r1_kv)) (k1_pay6 (View.ld x2 r1_kv))
    (k1_pay7 (View.ld x0 r1_q) (View.ld x1 r1_kv))⟩]

/-- The one store covers the buffer. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

set_option maxHeartbeats 1000000 in
/-- The body on whole staging memrefs, the inputs' at contents `xW` and the output's at anything, runs to the
    continuation holding the inputs' as they were and the output's at `out1_3` of the inputs'. -/
theorem sound_kernel1 (c : Dev nD) (E : Set ℕ) (i : grid1.Coords) (arg3 : Memref sig .tc .vmem S1x512x128 .f32) (harg3 : arg3.IsWhole)
    (arg4 : Memref sig .tc .vmem S1x2048x128 .f32) (harg4 : arg4.IsWhole) (arg5 : Memref sig .tc .vmem S1x2048x128 .f32) (harg5 : arg5.IsWhole)
    (arg6 : Memref sig .tc .vmem S1x512x128 .f32) (harg6 : arg6.IsWhole)
    (x0 : Vec F S1x512x128 .f32) (x1 : Vec F S1x2048x128 .f32) (x2 : Vec F S1x2048x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t`
    each input's buffer at its block and the output's at `out1_3` of the input blocks; the invariant the scoped
    rest and the generator register, untouched; nothing owed. The three input windows read ONE array: the
    query window holds it at the left half share, the key window at the left half of the right half, the value
    window at the rest. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole run of the program: a reshape of the input rows, the projection kernel (region 0), a reshape of
  the projected rows, the attention kernel (region 1). The contents of every unscoped buffer are followed
  from the launch memory through the four items — a host stretch applies its operations, a region replaces
  its output array by what its write-backs leave — and the run is assembled from one segment per item.
  Region 1 reads ONE array through three windows: at its entry that array's points-to is divided into three
  shares (a half, a quarter, a quarter), one per window, and at its exit the three are joined again.
  The result: every weakly fair execution terminates without a fault, and every unscoped buffer ends at the
  last boundary's contents — in particular the arguments as launched and the result array at what the
  attention kernel's write-backs leave.
-/
import proofs.«155869_j9405978378411_2_alg».proof.Proof.K0
import proofs.«155869_j9405978378411_2_alg».proof.Proof.K1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape of the input rows (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the projected rows (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the result array at what the pipeline's write-backs leave, every other buffer as entered
    (the three input windows' one array is only read). -/
def W4 (c : Dev nD) : Valuation τ sig (Elt F) :=
  Function.update (W3 m ρ c) (Proc.devRef .tc main_v3) ((dat1 (V3 m ρ) c).arrAt 3 cfg1.N)
abbrev V4 : (c : Dev nD) → (b : Ref sig .tc) → Buf (Elt F) ((c : Thread nD τ).loc b) := fun c b => W4 m ρ c b
theorem W4_out (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..

/-! ## The proof data family and what rides beside the buffers -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the core's generator register at some state and its `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## Region 0 as a segment -/

set_option backward.isDefEq.respectTransparency.types false in
/-- Region 0: entered from every unscoped buffer at `W1`, left at `W2`. Its four arrays (distinct buffers) are
    split out of the unscoped buffers and put back at the exit contents; the generator register goes into the
    invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment: one array read through three windows -/

/-- The array the three input windows read, and the result array, as the two buffers behind region 1's windows. -/
theorem arrImage1 : Finset.univ.image (Pipeline.arrRef spec1) = ([main_v2, main_v3] : List (Ref sig .tc)).toFinset := by decide

/-- Region 1's arrays at contents `G`, window by window: the shared array at the three windows' shares, the
    result array at the full share. -/
theorem arrays1_eq (c : Dev nD) (G : (w : Fin cfg1.W) → Buf (Elt F) ((cfg1.win w).arr.view.loc (c : Thread nD τ))) :
    ((dat1 (V3 m ρ) c).arrays G : sProp 𝕄)
      = iprop((((c : Thread nD τ).loc main_v2) ↦{fullShare.left} G 0) ∗ (((c : Thread nD τ).loc main_v2) ↦{fullShare.right.left} G 1)
          ∗ (((c : Thread nD τ).loc main_v2) ↦{fullShare.right.right} G 2) ∗ (((c : Thread nD τ).loc main_v3) ↦{fullShare} G 3)) := by
  unfold Dat.arrays
  rw [bigSep_W1, (arr_whole1 0).set_eq_univ, (arr_whole1 3).set_eq_univ]
  rfl

/-- The shared array whole is its three shares, and back. -/
theorem share3 (c : Dev nD) (f : Buf (Elt F) ((c : Thread nD τ).loc main_v2)) :
    ((((c : Thread nD τ).loc main_v2) ↦{fullShare} f : sProp 𝕄))
      ⊣⊢ iprop((((c : Thread nD τ).loc main_v2) ↦{fullShare.left} f) ∗ (((c : Thread nD τ).loc main_v2) ↦{fullShare.right.left} f)
          ∗ (((c : Thread nD τ).loc main_v2) ↦{fullShare.right.right} f)) := by
  constructor
  · iintro H
    ihave H' := (pointsTo_share (PosShare.mem_left_op_right fullShare)).1 $$ H
    icases H' with ⟨H1, H23⟩
    ihave H'' := (pointsTo_share (PosShare.mem_left_op_right fullShare.right)).1 $$ H23
    icases H'' with ⟨H2, H3⟩
    isplitl [H1]; · iexact H1
    isplitl [H2]; · iexact H2
    iexact H3
  · iintro ⟨H1, H2, H3⟩
    iapply (pointsTo_share (PosShare.mem_left_op_right fullShare)).2
    isplitl [H1]; · iexact H1
    iapply (pointsTo_share (PosShare.mem_left_op_right fullShare.right)).2
    isplitl [H2]; · iexact H2
    iexact H3

/-- A core's unscoped buffers at contents `V`: the shared array, the result array, and the rest. -/
theorem unscoped1_split (c : Dev nD) (V : (b : Ref sig .tc) → Buf (Elt F) ((c : Thread nD τ).loc b)) :
    (unscopedBufs c V : sProp 𝕄)
      = iprop(((((c : Thread nD τ).loc main_v2) ↦{fullShare} V main_v2) ∗ (((c : Thread nD τ).loc main_v3) ↦{fullShare} V main_v3))
          ∗ Pipeline.unscopedRest spec1 c V) := by
  rw [Pipeline.unscopedBufs_split₀ (Pipeline.pin (pcfgs (F := F)) adm) 1 winFacts₀1.arr_unscoped c V]
  unfold Pipeline.arrBufs
  rw [bigSep_eq_bigSepL_of_eq (S := Finset.univ.image (Pipeline.arrRef (Pipeline.pin (pcfgs (F := F)) adm 1).spec)) [main_v2, main_v3] arrImage1 (by decide)]
  rfl

/-- Region 1's entry: every unscoped buffer at `W3` gives the region's arrays at their entry contents — the shared
    array divided among the three input windows — and the unscoped rest. -/
theorem entry1 (c : Dev nD) :
    (StableHlo.held (c : Thread nD τ) (Pipeline.ucRefs τ sig) (W3 m ρ c) : sProp 𝕄)
      ⊢ iprop((pdats m ρ 1 c).arrays ((pdats m ρ 1 c).arrAt · 0) ∗ Pipeline.unscopedRest spec1 c (V3 m ρ c)) := by
  rw [show pdats m ρ 1 c = dat1 (V3 m ρ) c from rfl, ← Pipeline.unscopedBufs_held c (W3 m ρ c), unscoped1_split c _, arrays1_eq m ρ c]
  iintro ⟨⟨Hv2, Hv3⟩, Hrest⟩
  ihave H3s := (share3 c _).1 $$ Hv2
  icases H3s with ⟨Ha, Hb, Hc⟩
  isplitr [Hrest]
  · isplitl [Ha]; · iexact Ha
    isplitl [Hb]; · iexact Hb
    isplitl [Hc]; · iexact Hc
    iexact Hv3
  iexact Hrest

/-- An input window's array is never written: after any number of points it holds its entry contents. -/
theorem arrAt1_in (c : Dev nD) (w : Fin cfg1.W) (hw : (cfg1.win w).isOut = false) (n : Nat) :
    (dat1 (V3 m ρ) c).arrAt w n = (dat1 (V3 m ρ) c).A w :=
  (dat1 (V3 m ρ) c).arrAt_in w hw n

/-- Region 1's exit: the region's arrays at their final contents — the three shares of the shared array joined
    again, the result array at what the write-backs leave — and the unscoped rest give every unscoped buffer at `W4`. -/
theorem exit1 (c : Dev nD) :
    iprop((pdats m ρ 1 c).arrays ((pdats m ρ 1 c).arrAt · cfg1.N) ∗ Pipeline.unscopedRest spec1 c (V3 m ρ c))
      ⊢ (StableHlo.held (c : Thread nD τ) (Pipeline.ucRefs τ sig) (W4 m ρ c) : sProp 𝕄) := by
  rw [show pdats m ρ 1 c = dat1 (V3 m ρ) c from rfl, ← Pipeline.unscopedBufs_held c (W4 m ρ c), unscoped1_split c _, arrays1_eq m ρ c,
    arrAt1_in m ρ c 0 rfl, arrAt1_in m ρ c 1 rfl, arrAt1_in m ρ c 2 rfl]
  have hrest : (Pipeline.unscopedRest (Ix := Unit) (Name := ℕ) (U := UR sig nD τ) (Lvl := ℕ) spec1 c (V4 m ρ c) : sProp 𝕄)
      = Pipeline.unscopedRest spec1 c (V3 m ρ c) := by
    unfold Pipeline.unscopedRest
    exact bigSep_congr fun b hb => by
      rw [show V4 m ρ c b = V3 m ρ c b from W4_of_ne m ρ c b fun e =>
        (Finset.mem_sdiff.mp hb).2 (Finset.mem_image.mpr ⟨3, Finset.mem_univ _, e.symm⟩)]
  iintro ⟨⟨Ha, Hb, Hc, Hv3⟩, Hrest⟩
  isplitr [Hrest]
  · isplitl [Ha Hb Hc]
    · rw [W4_of_ne m ρ c main_v2 (by decide)]
      iapply (share3 c _).2
      isplitl [Ha]; · iexact Ha
      isplitl [Hb]; · iexact Hb
      iexact Hc
    · rw [W4_out m ρ c]
      iexact Hv3
  rw [hrest]; iexact Hrest

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The segments and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KHost.lean ====
/-
  The host side of the run, read off the boundary contents.

  The program is a reshape of the input rows (4 × 2048 × 768 to 8192 × 768), the projection region, a reshape of the
  projected rows (8192 × 2304 to 4 × 2048 × 2304), and the attention region. Here the buffers the two regions do not
  write are followed through the boundaries: the three arguments end as launched, the weight matrix and the bias row
  reach the projection region as launched, the flattened input rows hold row s of sequence n at row n·2048 + s, and the
  unflattened projected rows hold at (n, s) what the projection region leaves at row n·2048 + s of its output array.
  Nothing here depends on the number format.
-/
import proofs.«155869_j9405978378411_2_alg».proof.Proof.KRun
import Idealize.ShloMosaic.Lib.Pipeline.Value
import Idealize.ShloMosaic.Lib.ValueIdx
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-! ## The arguments end as launched

No host operation writes an argument and no region does: region 0 reads the weight matrix and the bias row through
input windows and never meets the input rows, region 1 meets none of the three. So the contents at the last boundary,
walked back boundary by boundary, are the launch memory's. -/

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## Region 0's entry: the weight matrix and the bias row as launched, the input rows flattened -/

theorem V1_arg1 (c : Dev nD) : V1 m ρ c main_arg1 = m ((c : Thread nD τ).loc main_arg1) :=
  calc V1 m ρ c main_arg1
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem V1_arg2 (c : Dev nD) : V1 m ρ c main_arg2 = m ((c : Thread nD τ).loc main_arg2) :=
  calc V1 m ρ c main_arg2
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The flattened input rows at region 0's entry: row n·2048 + s of the 8192 × 768 array is row s of sequence n. -/
theorem V1_v0 (c : Dev nD) (n : Fin 4) (s : Fin 2048) (k : Fin 768) :
    (V1 m ρ c main_v0 : S8192x768.Idx → Elt F .f32) (ix2 (⟨n.val * 2048 + s.val, by have := n.isLt; have := s.isLt; omega⟩ : Fin 8192) k)
      = (m ((c : Thread nD τ).loc main_arg0) : S4x2048x768.Idx → Elt F .f32) (ix3 n s k) := by
  have e : (V1 m ρ c main_v0 : S8192x768.Idx → Elt F .f32)
      = shapeCast S8192x768 (m ((c : Thread nD τ).loc main_arg0) : S4x2048x768.Idx → Elt F .f32) shapeCasts_S4x2048x768_S8192x768 := by
    dsimp only [V1, W1, hostOps0]; after_results; rfl
  rw [e]
  generalize (m ((c : Thread nD τ).loc main_arg0) : S4x2048x768.Idx → Elt F .f32) = y
  exact shapeCast_apply (s := S4x2048x768) (t := S8192x768) y shapeCasts_S4x2048x768_S8192x768 _ (ix3 n s k) (by
    show (S4x2048x768.rowMajor (ix3 n s k)).val
      = (S8192x768.rowMajor (ix2 (⟨n.val * 2048 + s.val, by have := n.isLt; have := s.isLt; omega⟩ : Fin 8192) k)).val
    rewrite [Shape.rowMajor_val_three, Shape.rowMajor_val_two]
    rfl)

/-! ## Region 1's entry: the projected rows, unflattened -/

/-- Row s of sequence n of the 4 × 2048 × 2304 array at region 1's entry is row n·2048 + s of what region 0 leaves in its
    output array. -/
theorem V3_v2 (c : Dev nD) (n : Fin 4) (s : Fin 2048) (e : Fin 2304) :
    (V3 m ρ c main_v2 : S4x2048x2304.Idx → Elt F .f32) (ix3 n s e)
      = ((dat0 (V1 m ρ) c).arrAt 3 cfg0.N : S8192x2304.Idx → Elt F .f32) (ix2 (⟨n.val * 2048 + s.val, by have := n.isLt; have := s.isLt; omega⟩ : Fin 8192) e) := by
  have h3 : (V3 m ρ c main_v2 : S4x2048x2304.Idx → Elt F .f32)
      = shapeCast S4x2048x2304 (W2 m ρ c (Proc.devRef .tc main_v1) : S8192x2304.Idx → Elt F .f32) shapeCasts_S8192x2304_S4x2048x2304 := by
    dsimp only [V3, W3, hostOps1]; after_results; rfl
  rw [h3, show W2 m ρ c (Proc.devRef .tc main_v1) = (dat0 (V1 m ρ) c).arrAt 3 cfg0.N from W2_arr m ρ c 3]
  generalize ((dat0 (V1 m ρ) c).arrAt 3 cfg0.N : S8192x2304.Idx → Elt F .f32) = y
  exact shapeCast_apply (s := S8192x2304) (t := S4x2048x2304) y shapeCasts_S8192x2304_S4x2048x2304 (ix3 n s e) _ (by
    show (S8192x2304.rowMajor (ix2 (⟨n.val * 2048 + s.val, by have := n.isLt; have := s.isLt; omega⟩ : Fin 8192) e)).val
      = (S4x2048x2304.rowMajor (ix3 n s e)).val
    rewrite [Shape.rowMajor_val_three, Shape.rowMajor_val_two]
    rfl)

end Cert.Kernel.Hand

end
-- ==== Proof.KI0.lean ====
/-
  Region 0, the projection kernel: at each of its 16 grid points the body loads a block of 512 input rows,
  the whole weight matrix and the whole bias row, and stores 512 projected rows. This module states what
  the output window's staging buffer holds after the body at a point (the one store's value over the
  loaded blocks), proves the body's triple, and gives the pipeline's proof data and body obligation at any
  contents `V` the region is entered from. The body also loads the output buffer before storing into it;
  the loaded value is unused, so the buffer may hold anything beforehand.
-/
import proofs.«155869_j9405978378411_2_alg».proof.Proof.Gen.KernelIdeal.Launch
import proofs.«155869_j9405978378411_2_alg».proof.Proof.Gen.KernelIdeal.Skeleton
import proofs.«155869_j9405978378411_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each the whole of its buffer. -/
abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S2304 := Rect.unit (s := S2304) ![0] S2304.size inb_S2304_S2304_0
abbrev r0_3 : Rect S512x2304 := Rect.unit (s := S512x2304) ![0, 0] S512x2304.size inb_S512x2304_S512x2304_0_0

/-- The output window's staging buffer after the body: its one store, of the projected rows of the loaded blocks. -/
def out0_3 (x0 : Vec F S512x768 .f32) (x1 : Vec F S768x2304 .f32) (x2 : Vec F S2304 .f32) : Vec F S512x2304 .f32 :=
  View.canon [⟨r0_3, k0_pay1 (View.ld x0 r0_0) (View.ld x1 r0_1) (View.ld x2 r0_2)⟩]

/-- The one store covers the buffer. -/
theorem cover0_3 (p0 : Vec F S512x2304 .f32) (y : S512x2304.Idx) :
    ∃ pc ∈ ([⟨r0_3, p0⟩] : List (View.Piece (Elt F) S512x2304 .f32)), y ∈ pc.1.set :=
  View.cover_of_tiled [⟨r0_3, p0⟩] S512x2304.size (by rfl) y

set_option maxHeartbeats 1000000 in
/-- The body on whole staging memrefs, the inputs' at contents `xW` and the output's at anything, runs to the
    continuation holding the inputs' as they were and the output's at `out0_3` of the inputs'. -/
theorem sound_kernel0 (c : Dev nD) (E : Set ℕ) (i : grid0.Coords) (arg1 : Memref sig .tc .vmem S512x768 .f32) (harg1 : arg1.IsWhole)
    (arg2 : Memref sig .tc .vmem S768x2304 .f32) (harg2 : arg2.IsWhole) (arg3 : Memref sig .tc .vmem S2304 .f32) (harg3 : arg3.IsWhole)
    (arg4 : Memref sig .tc .vmem S512x2304 .f32) (harg4 : arg4.IsWhole)
    (x0 : Vec F S512x768 .f32) (x1 : Vec F S768x2304 .f32) (x2 : Vec F S2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI1.lean ====
/-
  Region 1, the attention kernel: its grid has 4 × 6 × 4 points (sequence, pair of heads, tile of 512 query
  rows). At a point the body loads a block of 512 query rows and the 2048 key rows and 2048 value rows of
  the same pair of heads — three windows onto ONE array, the projected rows — and stores 512 output rows of
  128 columns. This module states what the output window's staging buffer holds after the body (the one
  store's value over the three loaded blocks), proves the body's triple, and gives the pipeline's proof data
  and body obligation at any contents `V` the region is entered from. Each of the three input windows holds
  the shared array at a share of its own (a half, a quarter, a quarter); the output's array is held whole.
-/
import proofs.«155869_j9405978378411_2_alg».proof.Proof.Gen.KernelIdeal.Launch
import proofs.«155869_j9405978378411_2_alg».proof.Proof.Gen.KernelIdeal.Skeleton
import proofs.«155869_j9405978378411_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each the whole of its buffer. -/
abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0

/-- The output window's staging buffer after the body: its one store, the two heads' outputs side by side,
    computed from the loaded query, key and value blocks. -/
def out1_3 (x0 : Vec F S1x512x128 .f32) (x1 : Vec F S1x2048x128 .f32) (x2 : Vec F S1x2048x128 .f32) : Vec F S1x512x128 .f32 :=
  View.canon [⟨r1_q, k1_pay1 (k1_pay5 (View.ld x0 r1_q) (View.ld x1 r1_kv) (View.ld x2 r1_kv)) (k1_pay6 (View.ld x2 r1_kv))
    (k1_pay7 (View.ld x0 r1_q) (View.ld x1 r1_kv))⟩]

/-- The one store covers the buffer. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

set_option maxHeartbeats 1000000 in
/-- The body on whole staging memrefs, the inputs' at contents `xW` and the output's at anything, runs to the
    continuation holding the inputs' as they were and the output's at `out1_3` of the inputs'. -/
theorem sound_kernel1 (c : Dev nD) (E : Set ℕ) (i : grid1.Coords) (arg3 : Memref sig .tc .vmem S1x512x128 .f32) (harg3 : arg3.IsWhole)
    (arg4 : Memref sig .tc .vmem S1x2048x128 .f32) (harg4 : arg4.IsWhole) (arg5 : Memref sig .tc .vmem S1x2048x128 .f32) (harg5 : arg5.IsWhole)
    (arg6 : Memref sig .tc .vmem S1x512x128 .f32) (harg6 : arg6.IsWhole)
    (x0 : Vec F S1x512x128 .f32) (x1 : Vec F S1x2048x128 .f32) (x2 : Vec F S1x2048x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t`
    each input's buffer at its block and the output's at `out1_3` of the input blocks; the invariant the scoped
    rest and the generator register, untouched; nothing owed. The three input windows read ONE array: the
    query window holds it at the left half share, the key window at the left half of the right half, the value
    window at the rest. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole run of the program: a reshape of the input rows, the projection kernel (region 0), a reshape of
  the projected rows, the attention kernel (region 1). The contents of every unscoped buffer are followed
  from the launch memory through the four items — a host stretch applies its operations, a region replaces
  its output array by what its write-backs leave — and the run is assembled from one segment per item.
  Region 1 reads ONE array through three windows: at its entry that array's points-to is divided into three
  shares (a half, a quarter, a quarter), one per window, and at its exit the three are joined again.
  The result: every weakly fair execution terminates without a fault, and every unscoped buffer ends at the
  last boundary's contents — in particular the arguments as launched and the result array at what the
  attention kernel's write-backs leave.
-/
import proofs.«155869_j9405978378411_2_alg».proof.Proof.KI0
import proofs.«155869_j9405978378411_2_alg».proof.Proof.KI1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape of the input rows (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the projected rows (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the result array at what the pipeline's write-backs leave, every other buffer as entered
    (the three input windows' one array is only read). -/
def W4 (c : Dev nD) : Valuation τ sig (Elt F) :=
  Function.update (W3 m ρ c) (Proc.devRef .tc main_v3) ((dat1 (V3 m ρ) c).arrAt 3 cfg1.N)
abbrev V4 : (c : Dev nD) → (b : Ref sig .tc) → Buf (Elt F) ((c : Thread nD τ).loc b) := fun c b => W4 m ρ c b
theorem W4_out (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..

/-! ## The proof data family and what rides beside the buffers -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the core's generator register at some state and its `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## Region 0 as a segment -/

set_option backward.isDefEq.respectTransparency.types false in
/-- Region 0: entered from every unscoped buffer at `W1`, left at `W2`. Its four arrays (distinct buffers) are
    split out of the unscoped buffers and put back at the exit contents; the generator register goes into the
    invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment: one array read through three windows -/

/-- The array the three input windows read, and the result array, as the two buffers behind region 1's windows. -/
theorem arrImage1 : Finset.univ.image (Pipeline.arrRef spec1) = ([main_v2, main_v3] : List (Ref sig .tc)).toFinset := by decide

/-- Region 1's arrays at contents `G`, window by window: the shared array at the three windows' shares, the
    result array at the full share. -/
theorem arrays1_eq (c : Dev nD) (G : (w : Fin cfg1.W) → Buf (Elt F) ((cfg1.win w).arr.view.loc (c : Thread nD τ))) :
    ((dat1 (V3 m ρ) c).arrays G : sProp 𝕄)
      = iprop((((c : Thread nD τ).loc main_v2) ↦{fullShare.left} G 0) ∗ (((c : Thread nD τ).loc main_v2) ↦{fullShare.right.left} G 1)
          ∗ (((c : Thread nD τ).loc main_v2) ↦{fullShare.right.right} G 2) ∗ (((c : Thread nD τ).loc main_v3) ↦{fullShare} G 3)) := by
  unfold Dat.arrays
  rw [bigSep_W1, (arr_whole1 0).set_eq_univ, (arr_whole1 3).set_eq_univ]
  rfl

/-- The shared array whole is its three shares, and back. -/
theorem share3 (c : Dev nD) (f : Buf (Elt F) ((c : Thread nD τ).loc main_v2)) :
    ((((c : Thread nD τ).loc main_v2) ↦{fullShare} f : sProp 𝕄))
      ⊣⊢ iprop((((c : Thread nD τ).loc main_v2) ↦{fullShare.left} f) ∗ (((c : Thread nD τ).loc main_v2) ↦{fullShare.right.left} f)
          ∗ (((c : Thread nD τ).loc main_v2) ↦{fullShare.right.right} f)) := by
  constructor
  · iintro H
    ihave H' := (pointsTo_share (PosShare.mem_left_op_right fullShare)).1 $$ H
    icases H' with ⟨H1, H23⟩
    ihave H'' := (pointsTo_share (PosShare.mem_left_op_right fullShare.right)).1 $$ H23
    icases H'' with ⟨H2, H3⟩
    isplitl [H1]; · iexact H1
    isplitl [H2]; · iexact H2
    iexact H3
  · iintro ⟨H1, H2, H3⟩
    iapply (pointsTo_share (PosShare.mem_left_op_right fullShare)).2
    isplitl [H1]; · iexact H1
    iapply (pointsTo_share (PosShare.mem_left_op_right fullShare.right)).2
    isplitl [H2]; · iexact H2
    iexact H3

/-- A core's unscoped buffers at contents `V`: the shared array, the result array, and the rest. -/
theorem unscoped1_split (c : Dev nD) (V : (b : Ref sig .tc) → Buf (Elt F) ((c : Thread nD τ).loc b)) :
    (unscopedBufs c V : sProp 𝕄)
      = iprop(((((c : Thread nD τ).loc main_v2) ↦{fullShare} V main_v2) ∗ (((c : Thread nD τ).loc main_v3) ↦{fullShare} V main_v3))
          ∗ Pipeline.unscopedRest spec1 c V) := by
  rw [Pipeline.unscopedBufs_split₀ (Pipeline.pin (pcfgs (F := F)) adm) 1 winFacts₀1.arr_unscoped c V]
  unfold Pipeline.arrBufs
  rw [bigSep_eq_bigSepL_of_eq (S := Finset.univ.image (Pipeline.arrRef (Pipeline.pin (pcfgs (F := F)) adm 1).spec)) [main_v2, main_v3] arrImage1 (by decide)]
  rfl

/-- Region 1's entry: every unscoped buffer at `W3` gives the region's arrays at their entry contents — the shared
    array divided among the three input windows — and the unscoped rest. -/
theorem entry1 (c : Dev nD) :
    (StableHlo.held (c : Thread nD τ) (Pipeline.ucRefs τ sig) (W3 m ρ c) : sProp 𝕄)
      ⊢ iprop((pdats m ρ 1 c).arrays ((pdats m ρ 1 c).arrAt · 0) ∗ Pipeline.unscopedRest spec1 c (V3 m ρ c)) := by
  rw [show pdats m ρ 1 c = dat1 (V3 m ρ) c from rfl, ← Pipeline.unscopedBufs_held c (W3 m ρ c), unscoped1_split c _, arrays1_eq m ρ c]
  iintro ⟨⟨Hv2, Hv3⟩, Hrest⟩
  ihave H3s := (share3 c _).1 $$ Hv2
  icases H3s with ⟨Ha, Hb, Hc⟩
  isplitr [Hrest]
  · isplitl [Ha]; · iexact Ha
    isplitl [Hb]; · iexact Hb
    isplitl [Hc]; · iexact Hc
    iexact Hv3
  iexact Hrest

/-- An input window's array is never written: after any number of points it holds its entry contents. -/
theorem arrAt1_in (c : Dev nD) (w : Fin cfg1.W) (hw : (cfg1.win w).isOut = false) (n : Nat) :
    (dat1 (V3 m ρ) c).arrAt w n = (dat1 (V3 m ρ) c).A w :=
  (dat1 (V3 m ρ) c).arrAt_in w hw n

/-- Region 1's exit: the region's arrays at their final contents — the three shares of the shared array joined
    again, the result array at what the write-backs leave — and the unscoped rest give every unscoped buffer at `W4`. -/
theorem exit1 (c : Dev nD) :
    iprop((pdats m ρ 1 c).arrays ((pdats m ρ 1 c).arrAt · cfg1.N) ∗ Pipeline.unscopedRest spec1 c (V3 m ρ c))
      ⊢ (StableHlo.held (c : Thread nD τ) (Pipeline.ucRefs τ sig) (W4 m ρ c) : sProp 𝕄) := by
  rw [show pdats m ρ 1 c = dat1 (V3 m ρ) c from rfl, ← Pipeline.unscopedBufs_held c (W4 m ρ c), unscoped1_split c _, arrays1_eq m ρ c,
    arrAt1_in m ρ c 0 rfl, arrAt1_in m ρ c 1 rfl, arrAt1_in m ρ c 2 rfl]
  have hrest : (Pipeline.unscopedRest (Ix := Unit) (Name := ℕ) (U := UR sig nD τ) (Lvl := ℕ) spec1 c (V4 m ρ c) : sProp 𝕄)
      = Pipeline.unscopedRest spec1 c (V3 m ρ c) := by
    unfold Pipeline.unscopedRest
    exact bigSep_congr fun b hb => by
      rw [show V4 m ρ c b = V3 m ρ c b from W4_of_ne m ρ c b fun e =>
        (Finset.mem_sdiff.mp hb).2 (Finset.mem_image.mpr ⟨3, Finset.mem_univ _, e.symm⟩)]
  iintro ⟨⟨Ha, Hb, Hc, Hv3⟩, Hrest⟩
  isplitr [Hrest]
  · isplitl [Ha Hb Hc]
    · rw [W4_of_ne m ρ c main_v2 (by decide)]
      iapply (share3 c _).2
      isplitl [Ha]; · iexact Ha
      isplitl [Hb]; · iexact Hb
      iexact Hc
    · rw [W4_out m ρ c]
      iexact Hv3
  rw [hrest]; iexact Hrest

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The segments and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KIHost.lean ====
/-
  The host side of the run, read off the boundary contents.

  The program is a reshape of the input rows (4 × 2048 × 768 to 8192 × 768), the projection region, a reshape of the
  projected rows (8192 × 2304 to 4 × 2048 × 2304), and the attention region. Here the buffers the two regions do not
  write are followed through the boundaries: the three arguments end as launched, the weight matrix and the bias row
  reach the projection region as launched, the flattened input rows hold row s of sequence n at row n·2048 + s, and the
  unflattened projected rows hold at (n, s) what the projection region leaves at row n·2048 + s of its output array.
  Nothing here depends on the number format.
-/
import proofs.«155869_j9405978378411_2_alg».proof.Proof.KIRun
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-! ## The arguments end as launched

No host operation writes an argument and no region does: region 0 reads the weight matrix and the bias row through
input windows and never meets the input rows, region 1 meets none of the three. So the contents at the last boundary,
walked back boundary by boundary, are the launch memory's. -/

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## Region 0's entry: the weight matrix and the bias row as launched, the input rows flattened -/

theorem V1_arg1 (c : Dev nD) : V1 m ρ c main_arg1 = m ((c : Thread nD τ).loc main_arg1) :=
  calc V1 m ρ c main_arg1
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem V1_arg2 (c : Dev nD) : V1 m ρ c main_arg2 = m ((c : Thread nD τ).loc main_arg2) :=
  calc V1 m ρ c main_arg2
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The flattened input rows at region 0's entry: row n·2048 + s of the 8192 × 768 array is row s of sequence n. -/
theorem V1_v0 (c : Dev nD) (n : Fin 4) (s : Fin 2048) (k : Fin 768) :
    (V1 m ρ c main_v0 : S8192x768.Idx → Elt F .f32) (ix2 (⟨n.val * 2048 + s.val, by have := n.isLt; have := s.isLt; omega⟩ : Fin 8192) k)
      = (m ((c : Thread nD τ).loc main_arg0) : S4x2048x768.Idx → Elt F .f32) (ix3 n s k) := by
  have e : (V1 m ρ c main_v0 : S8192x768.Idx → Elt F .f32)
      = shapeCast S8192x768 (m ((c : Thread nD τ).loc main_arg0) : S4x2048x768.Idx → Elt F .f32) shapeCasts_S4x2048x768_S8192x768 := by
    dsimp only [V1, W1, hostOps0]; after_results; rfl
  rw [e]
  generalize (m ((c : Thread nD τ).loc main_arg0) : S4x2048x768.Idx → Elt F .f32) = y
  exact shapeCast_apply (s := S4x2048x768) (t := S8192x768) y shapeCasts_S4x2048x768_S8192x768 _ (ix3 n s k) (by
    show (S4x2048x768.rowMajor (ix3 n s k)).val
      = (S8192x768.rowMajor (ix2 (⟨n.val * 2048 + s.val, by have := n.isLt; have := s.isLt; omega⟩ : Fin 8192) k)).val
    rewrite [Shape.rowMajor_val_three, Shape.rowMajor_val_two]
    rfl)

/-! ## Region 1's entry: the projected rows, unflattened -/

/-- Row s of sequence n of the 4 × 2048 × 2304 array at region 1's entry is row n·2048 + s of what region 0 leaves in its
    output array. -/
theorem V3_v2 (c : Dev nD) (n : Fin 4) (s : Fin 2048) (e : Fin 2304) :
    (V3 m ρ c main_v2 : S4x2048x2304.Idx → Elt F .f32) (ix3 n s e)
      = ((dat0 (V1 m ρ) c).arrAt 3 cfg0.N : S8192x2304.Idx → Elt F .f32) (ix2 (⟨n.val * 2048 + s.val, by have := n.isLt; have := s.isLt; omega⟩ : Fin 8192) e) := by
  have h3 : (V3 m ρ c main_v2 : S4x2048x2304.Idx → Elt F .f32)
      = shapeCast S4x2048x2304 (W2 m ρ c (Proc.devRef .tc main_v1) : S8192x2304.Idx → Elt F .f32) shapeCasts_S8192x2304_S4x2048x2304 := by
    dsimp only [V3, W3, hostOps1]; after_results; rfl
  rw [h3, show W2 m ρ c (Proc.devRef .tc main_v1) = (dat0 (V1 m ρ) c).arrAt 3 cfg0.N from W2_arr m ρ c 3]
  generalize ((dat0 (V1 m ρ) c).arrAt 3 cfg0.N : S8192x2304.Idx → Elt F .f32) = y
  exact shapeCast_apply (s := S8192x2304) (t := S4x2048x2304) y shapeCasts_S8192x2304_S4x2048x2304 (ix3 n s e) _ (by
    show (S8192x2304.rowMajor (ix2 (⟨n.val * 2048 + s.val, by have := n.isLt; have := s.isLt; omega⟩ : Fin 8192) e)).val
      = (S4x2048x2304.rowMajor (ix3 n s e)).val
    rewrite [Shape.rowMajor_val_three, Shape.rowMajor_val_two]
    rfl)

end Cert.KernelIdeal.Hand

end
-- ==== Proof.Frames.lean ====
/-
  The three frame claims and the idealization claim.

  Each kernel program's run ends with every unscoped buffer at the last boundary's contents, and the three
  argument arrays reach the last boundary as launched: no host operation writes one, the projection region only
  reads the weight matrix and the bias row, and the attention region reads none of them. The reference program
  has no kernel: its frame is its run with the result dropped. The idealized kernel program is the word-level
  one's own text read on the extended reals — the idealization rewrote nothing — so that claim has no conjunct.
-/
import proofs.«155869_j9405978378411_2_alg».proof.Defs
import proofs.«155869_j9405978378411_2_alg».proof.Proof.KHost
import proofs.«155869_j9405978378411_2_alg».proof.Proof.KIHost
import proofs.«155869_j9405978378411_2_alg».proof.Proof.Gen.ReferenceIdeal.Run
import proofs.«155869_j9405978378411_2_alg».proof.Proof.Gen.Pre_finite_inputs

noncomputable section

namespace Cert.Proof.Frames

open Idealize.ShloMosaic Idealize.ShloMosaic.TcCoe Idealize.SL.Sem

/-- The word-level kernel program runs and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W4_arg0 m ρ c),
     (h c _ (Cert.Kernel.Hand.mem_uc Cert.Kernel.main_arg1 (by decide))).trans (Cert.Kernel.Hand.W4_arg1 m ρ c),
     (h c _ (Cert.Kernel.Hand.mem_uc Cert.Kernel.main_arg2 (by decide))).trans (Cert.Kernel.Hand.W4_arg2 m ρ c)⟩)
    (Cert.Kernel.Hand.run_all (F := Bits) m ρ)

/-- The idealized kernel program runs and leaves its arguments as launched. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W4_arg0 m ρ c),
     (h c _ (Cert.KernelIdeal.Hand.mem_uc Cert.KernelIdeal.main_arg1 (by decide))).trans (Cert.KernelIdeal.Hand.W4_arg1 m ρ c),
     (h c _ (Cert.KernelIdeal.Hand.mem_uc Cert.KernelIdeal.main_arg2 (by decide))).trans (Cert.KernelIdeal.Hand.W4_arg2 m ρ c)⟩)
    (Cert.KernelIdeal.Hand.run_all (F := Ideal) m ρ)

/-- The reference program runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

end Cert.Proof.Frames

end
-- ==== Proof.Pay0.lean ====
/-
  The projection kernel's stored block, read at an index.

  One grid step of the projection kernel holds a block of 512 input rows, the whole 768 × 2304 weight matrix and
  the bias row. It multiplies the block by the matrix into a zero accumulator and adds the bias row to every row
  of the product. Over the extended reals the narrowing of both operands to the shorter format changes nothing,
  so entry (r, e) of the stored block is the dot product of input row r with weight column e, plus the bias at e.
-/
import proofs.«155869_j9405978378411_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue0

open Cert.KernelIdeal Cert.KernelIdeal.Gen Idealize.ShloMosaic Idealize.ShloMosaic.ValueIdx

/-- The left operand of the product is read at the result's row … -/
theorem lhs_0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
/-- … and at the contraction index on its column axis. -/
theorem lhs_1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q
/-- The right operand is read at the contraction index on its row axis … -/
theorem rhs_0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q
/-- … and at the result's column. -/
theorem rhs_1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The product into the zero accumulator, at (r, e): the sum over the 768 contraction positions. -/
theorem matmul_at (a : FVec Ideal S512x768 .bf16) (b : FVec Ideal S768x2304 .bf16) (r : Fin 512) (e : Fin 2304) :
    matmul dot_S512x768_S768x2304_S512x2304_1_0_0_1_n_n none a b (constant S512x2304 .f32 0x00000000#32) (ix2 r e)
      = ∑ k : Fin 768, a (ix2 r k) * b (ix2 k e) := by
  refine (Ideal.matmul_constant_zero_apply dot_S512x768_S768x2304_S512x2304_1_0_0_1_n_n none a b (ix2 r e)).trans ?_
  rw [← Equiv.sum_comp (ValueIdx.contrEquiv1 dot_S512x768_S768x2304_S512x2304_1_0_0_1_n_n 768 rfl rfl).symm]
  refine Finset.sum_congr rfl fun k _ => ?_
  have hk := ValueIdx.contrEquiv1_symm_val dot_S512x768_S768x2304_S512x2304_1_0_0_1_n_n 768 rfl rfl k
  have el : dot_S512x768_S768x2304_S512x2304_1_0_0_1_n_n.lhsIdx (ix2 r e) ((ValueIdx.contrEquiv1 dot_S512x768_S768x2304_S512x2304_1_0_0_1_n_n 768 rfl rfl).symm k) = ix2 r k := funext fun c => Fin.ext (by
    match c with
    | ⟨0, _⟩ => exact lhs_0 _ _
    | ⟨1, _⟩ => exact (lhs_1 _ _).trans hk)
  have er : dot_S512x768_S768x2304_S512x2304_1_0_0_1_n_n.rhsIdx (ix2 r e) ((ValueIdx.contrEquiv1 dot_S512x768_S768x2304_S512x2304_1_0_0_1_n_n 768 rfl rfl).symm k) = ix2 k e := funext fun c => Fin.ext (by
    match c with
    | ⟨0, _⟩ => exact (rhs_0 _ _).trans hk
    | ⟨1, _⟩ => exact rhs_1 _ _)
  rw [el, er]

/-- Entry (r, e) of the stored block: the dot product of input row r with weight column e, plus the bias at e. -/
theorem pay0_apply (x0 : Vec Ideal S512x768 .f32) (x1 : Vec Ideal S768x2304 .f32) (x2 : Vec Ideal S2304 .f32) (r : Fin 512) (e : Fin 2304) :
    k0_pay1 (F := Ideal) x0 x1 x2 (ix2 r e) = (∑ k : Fin 768, x0 (ix2 r k) * x1 (ix2 k e)) + x2 (ix1 e) := by
  unfold k0_pay1
  rw [shapeCast_self]
  refine (addf_apply _ _ (ix2 r e)).trans ?_
  rw [matmul_at, broadcastTo_1b_ab_apply, shapeCast_a_1a_apply]
  rfl

end Cert.KernelIdeal.PayValue0

end
-- ==== Proof.KIVal0.lean ====
/-
  Region 0, from blocks to the array.

  The projection kernel runs over 16 grid points. Point t loads rows 512·t .. 512·t + 511 of the input array
  (8192 × 768), the whole weight matrix (768 × 2304) and the whole bias row (2304), and writes rows
  512·t .. 512·t + 511 (all 2304 columns) of the projected array (8192 × 2304). Entry (r, e) of a stored block
  is the dot product of the block's input row r with weight column e, plus the bias at e; the 16 row blocks
  tile the projected array (row r lies in block r / 512). So after the region the projected array holds, at
  (r, e), the dot product of input row r with weight column e, plus the bias at e.
-/
import proofs.«155869_j9405978378411_2_alg».proof.Proof.KI0
import proofs.«155869_j9405978378411_2_alg».proof.Proof.Pay0
import Idealize.ShloMosaic.Lib.Pipeline.Value
import Idealize.ShloMosaic.Lib.ValueIdx

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0_2 : (![0, 0] : Fin 2 → Nat) = fun _ => 0 := funext fun a => by fin_cases a <;> rfl
theorem hz0_1 : (![0] : Fin 1 → Nat) = fun _ => 0 := funext fun a => by fin_cases a <;> rfl

/-- The projected array as one function of the three argument arrays: at (r, e) the dot product of input row r with
    weight column e, plus the bias at e. -/
def G0 (X : S8192x768.Idx → EReal) (W : S768x2304.Idx → EReal) (B : S2304.Idx → EReal) : S8192x2304.Idx → EReal :=
  fun i => (∑ k : Fin 768, X (ix2 (⟨(i 0).val, (i 0).isLt⟩ : Fin 8192) k) * W (ix2 k (⟨(i 1).val, (i 1).isLt⟩ : Fin 2304)))
    + B (ix1 (⟨(i 1).val, (i 1).isLt⟩ : Fin 2304))

/-- The stored block at any of its indices. -/
theorem pay0_at (x0 : Vec Ideal S512x768 .f32) (x1 : Vec Ideal S768x2304 .f32) (x2 : Vec Ideal S2304 .f32) (j : S512x2304.Idx) :
    k0_pay1 (F := Ideal) x0 x1 x2 j
      = (∑ k : Fin 768, x0 (ix2 (⟨(j 0).val, (j 0).isLt⟩ : Fin 512) k) * x1 (ix2 k (⟨(j 1).val, (j 1).isLt⟩ : Fin 2304)))
        + x2 (ix1 (⟨(j 1).val, (j 1).isLt⟩ : Fin 2304)) := by
  obtain ⟨r, e, rfl⟩ : ∃ (r : Fin 512) (e : Fin 2304), j = ix2 r e := ⟨j 0, j 1, eq_ix2 j⟩
  exact Cert.KernelIdeal.PayValue0.pay0_apply x0 x1 x2 r e

/-- The printed index maps over the grid: the input-row window and the output window sit at row block t, the weight
    and bias windows at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem lt16 (t : Fin cfg0.N) : t.val < 16 := lt_of_lt_of_eq t.isLt N_0

/-- Where an element of point t's input-row block sits in the input array: row 512·t + its row, same column. -/
theorem emb0_0 (t : Fin cfg0.N) (y : S512x768.Idx) :
    (((cfg0.win 0).blk t).view.emb y : S8192x768.Idx)
      = ix2 (⟨t.val * 512 + (y 0).val, by have := lt16 t; have h : (y 0).val < 512 := (y 0).isLt; omega⟩ : Fin 8192)
          (⟨(y 1).val, (y 1).isLt⟩ : Fin 768) := by
  obtain ⟨e00, e01, e10, e11, e20, e30, e31⟩ := idx_facts0 t
  funext a; apply Fin.ext
  match a with
  | ⟨0, _⟩ => show win0_0.index t (0 : Fin 2) * 512 + 1 * (y 0).val = t.val * 512 + (y 0).val; omega
  | ⟨1, _⟩ => show win0_0.index t (1 : Fin 2) * 768 + 1 * (y 1).val = (y 1).val; omega

/-- The weight window's one block is the weight matrix. -/
theorem emb0_1 (t : Fin cfg0.N) (y : S768x2304.Idx) :
    (((cfg0.win 1).blk t).view.emb y : S768x2304.Idx) = y := by
  obtain ⟨e00, e01, e10, e11, e20, e30, e31⟩ := idx_facts0 t
  funext a; apply Fin.ext
  match a with
  | ⟨0, _⟩ => show win0_1.index t (0 : Fin 2) * 768 + 1 * (y 0).val = (y 0).val; omega
  | ⟨1, _⟩ => show win0_1.index t (1 : Fin 2) * 2304 + 1 * (y 1).val = (y 1).val; omega

/-- The bias window's one block is the bias row. -/
theorem emb0_2 (t : Fin cfg0.N) (y : S2304.Idx) :
    (((cfg0.win 2).blk t).view.emb y : S2304.Idx) = y := by
  obtain ⟨e00, e01, e10, e11, e20, e30, e31⟩ := idx_facts0 t
  funext a; apply Fin.ext
  match a with
  | ⟨0, _⟩ => show win0_2.index t (0 : Fin 1) * 2304 + 1 * (y 0).val = (y 0).val; omega

/-- Where an element of point t's output block sits in the projected array: row 512·t + its row, same column. -/
theorem emb0_3 (t : Fin cfg0.N) (y : S512x2304.Idx) :
    (((cfg0.win 3).blk t).view.emb y : S8192x2304.Idx)
      = ix2 (⟨t.val * 512 + (y 0).val, by have := lt16 t; have h : (y 0).val < 512 := (y 0).isLt; omega⟩ : Fin 8192)
          (⟨(y 1).val, (y 1).isLt⟩ : Fin 2304) := by
  obtain ⟨e00, e01, e10, e11, e20, e30, e31⟩ := idx_facts0 t
  funext a; apply Fin.ext
  match a with
  | ⟨0, _⟩ => show win0_3.index t (0 : Fin 2) * 512 + 1 * (y 0).val = t.val * 512 + (y 0).val; omega
  | ⟨1, _⟩ => show win0_3.index t (1 : Fin 2) * 2304 + 1 * (y 1).val = (y 1).val; omega

/-- The three input blocks at point t, read at an index: the arrays at the index the block's rectangle names. -/
theorem iblk0_0_apply (c : Dev nD) (t : Fin cfg0.N) (y : S512x768.Idx) :
    (iblk0 V c 0 t : S512x768.Idx → EReal) y
      = (V c main_v0 : S8192x768.Idx → EReal) (ix2 (⟨t.val * 512 + (y 0).val, by have := lt16 t; have h : (y 0).val < 512 := (y 0).isLt; omega⟩ : Fin 8192)
          (⟨(y 1).val, (y 1).isLt⟩ : Fin 768)) := by
  show (V c main_v0 : S8192x768.Idx → EReal) (((cfg0.win 0).blk t).view.emb y) = _
  rw [emb0_0]
theorem iblk0_1_apply (c : Dev nD) (t : Fin cfg0.N) (y : S768x2304.Idx) :
    (iblk0 V c 1 t : S768x2304.Idx → EReal) y = (V c main_arg1 : S768x2304.Idx → EReal) y := by
  show (V c main_arg1 : S768x2304.Idx → EReal) (((cfg0.win 1).blk t).view.emb y) = _
  rw [emb0_1]
theorem iblk0_2_apply (c : Dev nD) (t : Fin cfg0.N) (y : S2304.Idx) :
    (iblk0 V c 2 t : S2304.Idx → EReal) y = (V c main_arg2 : S2304.Idx → EReal) y := by
  show (V c main_arg2 : S2304.Idx → EReal) (((cfg0.win 2).blk t).view.emb y) = _
  rw [emb0_2]

/-- What point t writes back is block t of the projected array `G0` of the argument arrays as the region finds them. -/
theorem flushed0_eq (c : Dev nD) (t : Fin cfg0.N) :
    (dat0 V c).flushed 3 t = ((cfg0.win 3).blk t).view.read (Elt Ideal) (G0 (V c main_v0) (V c main_arg1) (V c main_arg2)) := by
  show (cfg0.win 3).cut (grid0.coords t) ((dat0 V c).after 3 t) = _
  rw [after0_3]
  unfold out0_3
  rw [View.canon_unit_zero hz0_2]
  simp only [View.ld_unit_zero (S := S512x768) hz0_2, View.ld_unit_zero (S := S768x2304) hz0_2, View.ld_unit_zero (S := S2304) hz0_1]
  funext j
  show k0_pay1 (F := Ideal) (iblk0 V c 0 t) (iblk0 V c 1 t) (iblk0 V c 2 t) j
    = G0 (V c main_v0) (V c main_arg1) (V c main_arg2) (((cfg0.win 3).blk t).view.emb j)
  rw [emb0_3, pay0_at]
  unfold G0
  simp only [iblk0_0_apply, iblk0_1_apply, iblk0_2_apply]

/-- An index of the projected array is in point t's block iff each coordinate is in the block's range on its axis. -/
theorem mem_blk0 (t : Fin cfg0.N) (i : S8192x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v1).slice (win0_3.rect t)).set ↔ _
  rw [View.set_slice_whole, Rect.mem_set_unit]
  exact Iff.rfl

/-- The 16 row blocks tile the projected array: row r lies in the block of point r / 512. -/
theorem cover0 (i : S8192x2304.Idx) :
    ∃ t : Fin cfg0.N, (cfg0.win 3).flush t = true ∧ i ∈ ((cfg0.win 3).blk t).view.set := by
  have hi0 : (i 0).val < 8192 := (i 0).isLt
  have hi1 : (i 1).val < 2304 := (i 1).isLt
  have hT : (i 0).val / 512 < cfg0.N := lt_of_lt_of_eq (show (i 0).val / 512 < 16 by omega) N_0.symm
  obtain ⟨e00, e01, e10, e11, e20, e30, e31⟩ := idx_facts0 ⟨(i 0).val / 512, hT⟩
  have e30' : win0_3.index ⟨(i 0).val / 512, hT⟩ (0 : Fin 2) = (i 0).val / 512 := e30
  refine ⟨⟨(i 0).val / 512, hT⟩, flush0_3 _, ?_⟩
  rw [mem_blk0]
  intro a
  match a with
  | ⟨0, _⟩ =>
    show win0_3.index ⟨(i 0).val / 512, hT⟩ (0 : Fin 2) * 512 ≤ (i 0).val ∧ (i 0).val < win0_3.index ⟨(i 0).val / 512, hT⟩ (0 : Fin 2) * 512 + 512
    omega
  | ⟨1, _⟩ =>
    show win0_3.index ⟨(i 0).val / 512, hT⟩ (1 : Fin 2) * 2304 ≤ (i 1).val ∧ (i 1).val < win0_3.index ⟨(i 0).val / 512, hT⟩ (1 : Fin 2) * 2304 + 2304
    omega

/-- The projected array after the region is `G0` of the argument arrays. -/
theorem arr0_eq (c : Dev nD) :
    (dat0 V c).arrAt 3 cfg0.N = G0 (V c main_v0) (V c main_arg1) (V c main_arg2) :=
  (dat0 V c).arrAt_eq_of_cover 3 (G0 (V c main_v0) (V c main_arg1) (V c main_arg2)) (fun t _ => flushed0_eq V c t) cover0

/-- After the region the projected array holds, at (r, e), the dot product of input row r with weight column e, plus
    the bias at e. -/
theorem final0 (c : Dev nD) (r : Fin 8192) (e : Fin 2304) :
    ((Cert.KernelIdeal.Hand.dat0 V c).arrAt 3 cfg0.N : S8192x2304.Idx → EReal) (ix2 r e)
      = HAdd.hAdd (α := EReal) (β := EReal) (γ := EReal)
          (∑ k : Fin 768, HMul.hMul (α := EReal) (β := EReal) (γ := EReal)
            ((V c main_v0 : S8192x768.Idx → EReal) (ix2 r k)) ((V c main_arg1 : S768x2304.Idx → EReal) (ix2 k e)))
          ((V c main_arg2 : S2304.Idx → EReal) (ix1 e)) := by
  rw [arr0_eq]
  rfl

end Cert.KernelIdeal.Val

end
-- ==== Proof.Spec.lean ====
/-
  What the program computes, as mathematics on the extended reals.

  The input is a batch of 4 sequences of 2048 rows of width 768. Every row is projected to width 2304
  (a matrix product with a 768 × 2304 matrix plus a bias row); the projected row is read as three
  consecutive parts of width 768 — queries, keys, values — and each part as 12 heads of width 64.
  For one sequence and one head, a query row is scored against every key row (the dot product over
  the 64 columns, times 1/8), the 2048 scores are shifted by their maximum and exponentiated, each
  weight is divided by the sum of the weights, and the output row is the weighted sum of the value rows.
  The heads' outputs are laid side by side again: column 64·h + d of the result is column d of head h.

  Everything is stated over plain functions of literal index types, so that neither program's layout
  appears here; the two sides each prove that their result array is `result` of their argument arrays.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The projected row: entry `e` of row `s` of sequence `n` is the dot product of the input row with
    column `e` of the weight matrix, plus the bias at `e`. -/
def proj (x : Fin 4 → Fin 2048 → Fin 768 → EReal) (w : Fin 768 → Fin 2304 → EReal) (b : Fin 2304 → EReal)
    (n : Fin 4) (s : Fin 2048) (e : Fin 2304) : EReal :=
  (∑ k : Fin 768, x n s k * w k e) + b e

/-- The score of a query row against key row `j`: their dot product over the head's 64 columns, times 1/8. -/
def score (q : Fin 64 → EReal) (K : Fin 2048 → Fin 64 → EReal) (j : Fin 2048) : EReal :=
  (∑ d : Fin 64, q d * K j d) * Ideal.ofBits .f32 0x3E000000#32

/-- The maximum of a row of 2048 scores, folded from −∞. -/
def rowMax (s : Fin 2048 → EReal) : EReal :=
  (Finset.univ : Finset (Fin 2048)).fold max (Ideal.ofBits .f32 0xFF800000#32) s

/-- The unnormalised weight of entry `j`: the exponential of the score shifted by the row's maximum. -/
def weight (s : Fin 2048 → EReal) (j : Fin 2048) : EReal := Ideal.exp (s j - rowMax s)

/-- One head's output row: the value rows averaged with the normalised weights. -/
def head (q : Fin 64 → EReal) (K V : Fin 2048 → Fin 64 → EReal) (d : Fin 64) : EReal :=
  ∑ j : Fin 2048, Ideal.div (weight (score q K) j) (∑ j' : Fin 2048, weight (score q K) j') * V j d

/-- Column `64·h + d` of part `p` (0 queries, 1 keys, 2 values) of a projected row. -/
def col (p : Fin 3) (h : Fin 12) (d : Fin 64) : Fin 2304 :=
  ⟨768 * p.val + 64 * h.val + d.val, by have := p.isLt; have := h.isLt; have := d.isLt; omega⟩

/-- Attention over a projected array `P`: for sequence `n`, row `s`, head `h`, column `d`. -/
def attn (P : Fin 4 → Fin 2048 → Fin 2304 → EReal) (n : Fin 4) (s : Fin 2048) (h : Fin 12) (d : Fin 64) : EReal :=
  head (fun d' => P n s (col 0 h d')) (fun j d' => P n j (col 1 h d')) (fun j d' => P n j (col 2 h d')) d

/-- The whole result: entry (n, s, c) is head `c / 64`, column `c % 64`, of the attention over the projection. -/
def result (x : Fin 4 → Fin 2048 → Fin 768 → EReal) (w : Fin 768 → Fin 2304 → EReal) (b : Fin 2304 → EReal)
    (n : Fin 4) (s : Fin 2048) (c : Fin 768) : EReal :=
  attn (proj x w b) n s ⟨c.val / 64, by have := c.isLt; omega⟩ ⟨c.val % 64, Nat.mod_lt _ (by decide)⟩

/-- The result as an array over the rank-3 index type, from the three argument arrays. -/
def resultArr (X : (⟨3, ![4, 2048, 768]⟩ : Shape).Idx → EReal) (Wt : (⟨2, ![768, 2304]⟩ : Shape).Idx → EReal)
    (B : (⟨1, ![2304]⟩ : Shape).Idx → EReal) : (⟨3, ![4, 2048, 768]⟩ : Shape).Idx → EReal :=
  fun i => result (fun n s k => X (ix3 n s k)) (fun k e => Wt (ix2 k e)) (fun e => B (ix1 e)) (i 0) (i 1) (i 2)

/-- The projected array over the rank-3 index type. -/
def projArr (X : (⟨3, ![4, 2048, 768]⟩ : Shape).Idx → EReal) (Wt : (⟨2, ![768, 2304]⟩ : Shape).Idx → EReal)
    (B : (⟨1, ![2304]⟩ : Shape).Idx → EReal) : (⟨3, ![4, 2048, 2304]⟩ : Shape).Idx → EReal :=
  fun i => proj (fun n s k => X (ix3 n s k)) (fun k e => Wt (ix2 k e)) (fun e => B (ix1 e)) (i 0) (i 1) (i 2)

/-- Attention over a projected array given over the rank-3 index type. -/
def attnArr (P : (⟨3, ![4, 2048, 2304]⟩ : Shape).Idx → EReal) : (⟨3, ![4, 2048, 768]⟩ : Shape).Idx → EReal :=
  fun i => attn (fun n s e => P (ix3 n s e)) (i 0) (i 1)
    ⟨(i 2).val / 64, by have : (i 2).val < 768 := (i 2).isLt; omega⟩ ⟨(i 2).val % 64, Nat.mod_lt _ (by decide)⟩

theorem resultArr_eq (X : (⟨3, ![4, 2048, 768]⟩ : Shape).Idx → EReal) (Wt : (⟨2, ![768, 2304]⟩ : Shape).Idx → EReal)
    (B : (⟨1, ![2304]⟩ : Shape).Idx → EReal) : resultArr X Wt B = attnArr (projArr X Wt B) := rfl

end Cert.Attn

end
-- ==== Proof.KIVal1.lean ====
/-
  Region 1, from blocks to the array.

  The attention kernel runs over 4 × 6 × 4 grid points (sequence b, pair of heads p, tile s of 512 query rows);
  point number t is (b·6 + p)·4 + s. At a point the three input windows read ONE array, the projected rows
  (4 × 2048 × 2304): the query block is rows 512·s .. 512·s + 511 of sequence b at columns 128·p .. 128·p + 127,
  the key block all 2048 rows at columns 128·(6 + p) .. and the value block all 2048 rows at columns
  128·(12 + p) ..; the output block is rows 512·s .. of sequence b at columns 128·p .. of the result
  (4 × 2048 × 768). A pair of heads is two heads side by side: lane 64·hh + d of a 128-wide block is column d of
  head 2·p + hh, so query column 128·p + 64·hh + d is 64·h + d, key column 768 + 64·h + d and value column
  1536 + 64·h + d for h = 2·p + hh. Given that the stored block is, lane by lane, the attention of its head over
  the loaded blocks, the 96 output blocks tile the result, and the result holds at (n, s, c) head c / 64, column
  c % 64, of the attention over the projected rows.
-/
import proofs.«155869_j9405978378411_2_alg».proof.Proof.KI1
import proofs.«155869_j9405978378411_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

theorem hz1_3 : (![0, 0, 0] : Fin 3 → Nat) = fun _ => 0 := funext fun a => by fin_cases a <;> rfl

/-- Lane 64·hh + d of a 128-wide block: column d of the pair's head hh. -/
def lane1 (hh : Fin 2) (d : Fin 64) : Fin 128 := ⟨64 * hh.val + d.val, by have := hh.isLt; have := d.isLt; omega⟩

/-- Two rank-3 indices with equal coordinates are equal. -/
theorem ix3_congr {n0 n1 n2 : Nat} {a a' : Fin n0} {b b' : Fin n1} {c c' : Fin n2}
    (ha : a.val = a'.val) (hb : b.val = b'.val) (hc : c.val = c'.val) : ix3 a b c = ix3 a' b' c' := by
  rw [Fin.ext ha, Fin.ext hb, Fin.ext hc]

/-- The result array as one function of the projected array: at (n, s, c) head c / 64, column c % 64, of the attention
    over the projected rows. -/
def G1 (P : S4x2048x2304.Idx → EReal) : S4x2048x768.Idx → EReal :=
  fun i => Cert.Attn.attn (fun n s e => P (ix3 n s e)) (⟨(i 0).val, (i 0).isLt⟩ : Fin 4) (⟨(i 1).val, (i 1).isLt⟩ : Fin 2048)
    (⟨(i 2).val / 64, by have h : (i 2).val < 768 := (i 2).isLt; omega⟩ : Fin 12) (⟨(i 2).val % 64, Nat.mod_lt _ (by decide)⟩ : Fin 64)

/-- The printed index maps over the 96 grid points: with t = (b·6 + p)·4 + s the query and output windows sit at block
    (b, s, p), the key window at (b, 0, 6 + p), the value window at (b, 0, 12 + p). -/
theorem idx_facts1 : ∀ t : Fin cfg1.N,
    win1_0.index t (0 : Fin 3) = t.val / 24 ∧ win1_0.index t (1 : Fin 3) = t.val % 4 ∧ win1_0.index t (2 : Fin 3) = t.val / 4 % 6
    ∧ win1_1.index t (0 : Fin 3) = t.val / 24 ∧ win1_1.index t (1 : Fin 3) = 0 ∧ win1_1.index t (2 : Fin 3) = 6 + t.val / 4 % 6
    ∧ win1_2.index t (0 : Fin 3) = t.val / 24 ∧ win1_2.index t (1 : Fin 3) = 0 ∧ win1_2.index t (2 : Fin 3) = 12 + t.val / 4 % 6
    ∧ win1_3.index t (0 : Fin 3) = t.val / 24 ∧ win1_3.index t (1 : Fin 3) = t.val % 4 ∧ win1_3.index t (2 : Fin 3) = t.val / 4 % 6 :=
  (by decide +kernel : ∀ t : Fin grid1.N, _)

theorem lt96 (t : Fin cfg1.N) : t.val < 96 := lt_of_lt_of_eq t.isLt N_1

set_option quotPrecheck false in
local notation "𝕍" => ((c : Dev nD) → (b : Ref sig .tc) → Buf (Elt Ideal) ((c : Thread nD τ).loc b))

/-- What is assumed of the stored block: lane by lane, the attention of the lane's head over the loaded blocks. -/
def PayHyp : Prop :=
  ∀ (q : Vec Ideal S1x512x128 .f32) (k v : Vec Ideal S1x2048x128 .f32) (r : Fin 512) (hh : Fin 2) (d : Fin 64),
    k1_pay1 (F := Ideal) (k1_pay5 q k v) (k1_pay6 v) (k1_pay7 q k) (ix3 (0 : Fin 1) r (lane1 hh d))
      = Cert.Attn.head (fun d' => q (ix3 (0 : Fin 1) r (lane1 hh d'))) (fun j d' => k (ix3 (0 : Fin 1) j (lane1 hh d')))
          (fun j d' => v (ix3 (0 : Fin 1) j (lane1 hh d'))) d

/-- The stored block at any of its indices (u, r, l): lane l is column l % 64 of the pair's head l / 64. -/
theorem pay1_at (hpay : PayHyp) (q : Vec Ideal S1x512x128 .f32) (k v : Vec Ideal S1x2048x128 .f32) (u : Fin 1) (r : Fin 512) (l : Fin 128) :
    k1_pay1 (F := Ideal) (k1_pay5 q k v) (k1_pay6 v) (k1_pay7 q k) (ix3 u r l)
      = Cert.Attn.head
          (fun d' => q (ix3 (0 : Fin 1) r (lane1 (⟨l.val / 64, by have := l.isLt; omega⟩ : Fin 2) d')))
          (fun j d' => k (ix3 (0 : Fin 1) j (lane1 (⟨l.val / 64, by have := l.isLt; omega⟩ : Fin 2) d')))
          (fun j d' => v (ix3 (0 : Fin 1) j (lane1 (⟨l.val / 64, by have := l.isLt; omega⟩ : Fin 2) d')))
          (⟨l.val % 64, Nat.mod_lt _ (by decide)⟩ : Fin 64) := by
  have hu : u = (0 : Fin 1) := Subsingleton.elim _ _
  subst hu
  have hl : l = lane1 (⟨l.val / 64, by have := l.isLt; omega⟩ : Fin 2) (⟨l.val % 64, Nat.mod_lt _ (by decide)⟩ : Fin 64) :=
    Fin.ext (by show l.val = 64 * (l.val / 64) + l.val % 64; omega)
  exact (congrArg (fun z => k1_pay1 (F := Ideal) (k1_pay5 q k v) (k1_pay6 v) (k1_pay7 q k) (ix3 (0 : Fin 1) r z)) hl).trans
    (hpay q k v r _ _)

/-- The result array read at literal coordinates. -/
theorem G1_ix3 (P : S4x2048x2304.Idx → EReal) (n : Fin 4) (s : Fin 2048) (c : Fin 768) :
    G1 P (ix3 n s c) = Cert.Attn.attn (fun n s e => P (ix3 n s e)) n s
      (⟨c.val / 64, by have := c.isLt; omega⟩ : Fin 12) (⟨c.val % 64, Nat.mod_lt _ (by decide)⟩ : Fin 64) := rfl

/-- Where an element (u, r, l) of point t's query block sits in the projected array. -/
theorem emb1_0 (t : Fin cfg1.N) (u : Fin 1) (r : Fin 512) (l : Fin 128) :
    (((cfg1.win 0).blk t).view.emb (ix3 u r l) : S4x2048x2304.Idx)
      = ix3 (⟨t.val / 24, by have := lt96 t; omega⟩ : Fin 4) (⟨t.val % 4 * 512 + r.val, by have := r.isLt; omega⟩ : Fin 2048)
          (⟨t.val / 4 % 6 * 128 + l.val, by have := l.isLt; omega⟩ : Fin 2304) := by
  obtain ⟨e00, e01, e02, e10, e11, e12, e20, e21, e22, e30, e31, e32⟩ := idx_facts1 t
  have hu := u.isLt
  funext a; apply Fin.ext
  match a with
  | ⟨0, _⟩ => show win1_0.index t (0 : Fin 3) * 1 + 1 * u.val = t.val / 24; omega
  | ⟨1, _⟩ => show win1_0.index t (1 : Fin 3) * 512 + 1 * r.val = t.val % 4 * 512 + r.val; omega
  | ⟨2, _⟩ => show win1_0.index t (2 : Fin 3) * 128 + 1 * l.val = t.val / 4 % 6 * 128 + l.val; omega

/-- Where an element (u, j, l) of point t's key block sits in the projected array. -/
theorem emb1_1 (t : Fin cfg1.N) (u : Fin 1) (j : Fin 2048) (l : Fin 128) :
    (((cfg1.win 1).blk t).view.emb (ix3 u j l) : S4x2048x2304.Idx)
      = ix3 (⟨t.val / 24, by have := lt96 t; omega⟩ : Fin 4) j
          (⟨(6 + t.val / 4 % 6) * 128 + l.val, by have := l.isLt; omega⟩ : Fin 2304) := by
  obtain ⟨e00, e01, e02, e10, e11, e12, e20, e21, e22, e30, e31, e32⟩ := idx_facts1 t
  have hu := u.isLt
  funext a; apply Fin.ext
  match a with
  | ⟨0, _⟩ => show win1_1.index t (0 : Fin 3) * 1 + 1 * u.val = t.val / 24; omega
  | ⟨1, _⟩ => show win1_1.index t (1 : Fin 3) * 2048 + 1 * j.val = j.val; omega
  | ⟨2, _⟩ => show win1_1.index t (2 : Fin 3) * 128 + 1 * l.val = (6 + t.val / 4 % 6) * 128 + l.val; omega

/-- Where an element (u, j, l) of point t's value block sits in the projected array. -/
theorem emb1_2 (t : Fin cfg1.N) (u : Fin 1) (j : Fin 2048) (l : Fin 128) :
    (((cfg1.win 2).blk t).view.emb (ix3 u j l) : S4x2048x2304.Idx)
      = ix3 (⟨t.val / 24, by have := lt96 t; omega⟩ : Fin 4) j
          (⟨(12 + t.val / 4 % 6) * 128 + l.val, by have := l.isLt; omega⟩ : Fin 2304) := by
  obtain ⟨e00, e01, e02, e10, e11, e12, e20, e21, e22, e30, e31, e32⟩ := idx_facts1 t
  have hu := u.isLt
  funext a; apply Fin.ext
  match a with
  | ⟨0, _⟩ => show win1_2.index t (0 : Fin 3) * 1 + 1 * u.val = t.val / 24; omega
  | ⟨1, _⟩ => show win1_2.index t (1 : Fin 3) * 2048 + 1 * j.val = j.val; omega
  | ⟨2, _⟩ => show win1_2.index t (2 : Fin 3) * 128 + 1 * l.val = (12 + t.val / 4 % 6) * 128 + l.val; omega

/-- Where an element (u, r, l) of point t's output block sits in the result array. -/
theorem emb1_3 (t : Fin cfg1.N) (u : Fin 1) (r : Fin 512) (l : Fin 128) :
    (((cfg1.win 3).blk t).view.emb (ix3 u r l) : S4x2048x768.Idx)
      = ix3 (⟨t.val / 24, by have := lt96 t; omega⟩ : Fin 4) (⟨t.val % 4 * 512 + r.val, by have := r.isLt; omega⟩ : Fin 2048)
          (⟨t.val / 4 % 6 * 128 + l.val, by have := l.isLt; omega⟩ : Fin 768) := by
  obtain ⟨e00, e01, e02, e10, e11, e12, e20, e21, e22, e30, e31, e32⟩ := idx_facts1 t
  have hu := u.isLt
  funext a; apply Fin.ext
  match a with
  | ⟨0, _⟩ => show win1_3.index t (0 : Fin 3) * 1 + 1 * u.val = t.val / 24; omega
  | ⟨1, _⟩ => show win1_3.index t (1 : Fin 3) * 512 + 1 * r.val = t.val % 4 * 512 + r.val; omega
  | ⟨2, _⟩ => show win1_3.index t (2 : Fin 3) * 128 + 1 * l.val = t.val / 4 % 6 * 128 + l.val; omega

/-- The three input blocks at point t, read at literal coordinates: the projected array where the block's rectangle says. -/
theorem iblk1_0_apply (V : 𝕍) (c : Dev nD) (t : Fin cfg1.N) (u : Fin 1) (r : Fin 512) (l : Fin 128) :
    (iblk1 V c 0 t : S1x512x128.Idx → EReal) (ix3 u r l)
      = (V c main_v2 : S4x2048x2304.Idx → EReal) (ix3 (⟨t.val / 24, by have := lt96 t; omega⟩ : Fin 4)
          (⟨t.val % 4 * 512 + r.val, by have := r.isLt; omega⟩ : Fin 2048) (⟨t.val / 4 % 6 * 128 + l.val, by have := l.isLt; omega⟩ : Fin 2304)) := by
  show (V c main_v2 : S4x2048x2304.Idx → EReal) (((cfg1.win 0).blk t).view.emb (ix3 u r l)) = _
  rw [emb1_0]
theorem iblk1_1_apply (V : 𝕍) (c : Dev nD) (t : Fin cfg1.N) (u : Fin 1) (j : Fin 2048) (l : Fin 128) :
    (iblk1 V c 1 t : S1x2048x128.Idx → EReal) (ix3 u j l)
      = (V c main_v2 : S4x2048x2304.Idx → EReal) (ix3 (⟨t.val / 24, by have := lt96 t; omega⟩ : Fin 4) j
          (⟨(6 + t.val / 4 % 6) * 128 + l.val, by have := l.isLt; omega⟩ : Fin 2304)) := by
  show (V c main_v2 : S4x2048x2304.Idx → EReal) (((cfg1.win 1).blk t).view.emb (ix3 u j l)) = _
  rw [emb1_1]
theorem iblk1_2_apply (V : 𝕍) (c : Dev nD) (t : Fin cfg1.N) (u : Fin 1) (j : Fin 2048) (l : Fin 128) :
    (iblk1 V c 2 t : S1x2048x128.Idx → EReal) (ix3 u j l)
      = (V c main_v2 : S4x2048x2304.Idx → EReal) (ix3 (⟨t.val / 24, by have := lt96 t; omega⟩ : Fin 4) j
          (⟨(12 + t.val / 4 % 6) * 128 + l.val, by have := l.isLt; omega⟩ : Fin 2304)) := by
  show (V c main_v2 : S4x2048x2304.Idx → EReal) (((cfg1.win 2).blk t).view.emb (ix3 u j l)) = _
  rw [emb1_2]

/-- What point t writes back is block t of the result array `G1` of the projected array as the region finds it. -/
theorem flushed1_eq (hpay : PayHyp) (V : 𝕍) (c : Dev nD) (t : Fin cfg1.N) :
    (dat1 V c).flushed 3 t = ((cfg1.win 3).blk t).view.read (Elt Ideal) (G1 (V c main_v2)) := by
  show (cfg1.win 3).cut (grid1.coords t) ((dat1 V c).after 3 t) = _
  rw [after1_3]
  unfold out1_3
  rw [View.canon_unit_zero hz1_3]
  simp only [View.ld_unit_zero (S := S1x512x128) hz1_3, View.ld_unit_zero (S := S1x2048x128) hz1_3]
  funext j
  show k1_pay1 (F := Ideal) (k1_pay5 (iblk1 V c 0 t) (iblk1 V c 1 t) (iblk1 V c 2 t)) (k1_pay6 (iblk1 V c 2 t))
      (k1_pay7 (iblk1 V c 0 t) (iblk1 V c 1 t)) (j : S1x512x128.Idx)
    = G1 (V c main_v2) (((cfg1.win 3).blk t).view.emb j)
  obtain ⟨u, r, l, hj⟩ : ∃ (u : Fin 1) (r : Fin 512) (l : Fin 128), (j : S1x512x128.Idx) = ix3 u r l := ⟨j 0, j 1, j 2, eq_ix3 j⟩
  rw [hj, emb1_3, G1_ix3, pay1_at hpay]
  unfold Cert.Attn.attn
  have ht := lt96 t
  have hr := r.isLt
  have hl := l.isLt
  refine congr (congr (congr (congrArg Cert.Attn.head ?_) ?_) ?_) ?_
  · funext d'
    rw [iblk1_0_apply]
    have hd := d'.isLt
    exact congrArg (V c main_v2 : S4x2048x2304.Idx → EReal) (ix3_congr rfl rfl (by
      show t.val / 4 % 6 * 128 + (64 * (l.val / 64) + d'.val) = 768 * 0 + 64 * ((t.val / 4 % 6 * 128 + l.val) / 64) + d'.val
      omega))
  · funext j' d'
    rw [iblk1_1_apply]
    have hd := d'.isLt
    exact congrArg (V c main_v2 : S4x2048x2304.Idx → EReal) (ix3_congr rfl rfl (by
      show (6 + t.val / 4 % 6) * 128 + (64 * (l.val / 64) + d'.val) = 768 * 1 + 64 * ((t.val / 4 % 6 * 128 + l.val) / 64) + d'.val
      omega))
  · funext j' d'
    rw [iblk1_2_apply]
    have hd := d'.isLt
    exact congrArg (V c main_v2 : S4x2048x2304.Idx → EReal) (ix3_congr rfl rfl (by
      show (12 + t.val / 4 % 6) * 128 + (64 * (l.val / 64) + d'.val) = 768 * 2 + 64 * ((t.val / 4 % 6 * 128 + l.val) / 64) + d'.val
      omega))
  · exact Fin.ext (by show l.val % 64 = (t.val / 4 % 6 * 128 + l.val) % 64; omega)

/-- An index of the result array is in point t's block iff each coordinate is in the block's range on its axis. -/
theorem mem_blk1 (t : Fin cfg1.N) (i : S4x2048x768.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v3).slice (win1_3.rect t)).set ↔ _
  rw [View.set_slice_whole, Rect.mem_set_unit]
  exact Iff.rfl

/-- The 96 output blocks tile the result array: (n, s, c) lies in the block of point (n·6 + c / 128)·4 + s / 512. -/
theorem cover1 (i : S4x2048x768.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 768 := (i 2).isLt
  have hT : ((i 0).val * 6 + (i 2).val / 128) * 4 + (i 1).val / 512 < cfg1.N :=
    lt_of_lt_of_eq (show ((i 0).val * 6 + (i 2).val / 128) * 4 + (i 1).val / 512 < 96 by omega) N_1.symm
  obtain ⟨e00, e01, e02, e10, e11, e12, e20, e21, e22, e30, e31, e32⟩ :=
    idx_facts1 ⟨((i 0).val * 6 + (i 2).val / 128) * 4 + (i 1).val / 512, hT⟩
  have f0 : win1_3.index ⟨((i 0).val * 6 + (i 2).val / 128) * 4 + (i 1).val / 512, hT⟩ (0 : Fin 3)
      = (((i 0).val * 6 + (i 2).val / 128) * 4 + (i 1).val / 512) / 24 := e30
  have f1 : win1_3.index ⟨((i 0).val * 6 + (i 2).val / 128) * 4 + (i 1).val / 512, hT⟩ (1 : Fin 3)
      = (((i 0).val * 6 + (i 2).val / 128) * 4 + (i 1).val / 512) % 4 := e31
  have f2 : win1_3.index ⟨((i 0).val * 6 + (i 2).val / 128) * 4 + (i 1).val / 512, hT⟩ (2 : Fin 3)
      = (((i 0).val * 6 + (i 2).val / 128) * 4 + (i 1).val / 512) / 4 % 6 := e32
  refine ⟨⟨((i 0).val * 6 + (i 2).val / 128) * 4 + (i 1).val / 512, hT⟩, flush1_3 _, ?_⟩
  rw [mem_blk1]
  intro a
  match a with
  | ⟨0, _⟩ =>
    show win1_3.index ⟨((i 0).val * 6 + (i 2).val / 128) * 4 + (i 1).val / 512, hT⟩ (0 : Fin 3) * 1 ≤ (i 0).val
      ∧ (i 0).val < win1_3.index ⟨((i 0).val * 6 + (i 2).val / 128) * 4 + (i 1).val / 512, hT⟩ (0 : Fin 3) * 1 + 1
    omega
  | ⟨1, _⟩ =>
    show win1_3.index ⟨((i 0).val * 6 + (i 2).val / 128) * 4 + (i 1).val / 512, hT⟩ (1 : Fin 3) * 512 ≤ (i 1).val
      ∧ (i 1).val < win1_3.index ⟨((i 0).val * 6 + (i 2).val / 128) * 4 + (i 1).val / 512, hT⟩ (1 : Fin 3) * 512 + 512
    omega
  | ⟨2, _⟩ =>
    show win1_3.index ⟨((i 0).val * 6 + (i 2).val / 128) * 4 + (i 1).val / 512, hT⟩ (2 : Fin 3) * 128 ≤ (i 2).val
      ∧ (i 2).val < win1_3.index ⟨((i 0).val * 6 + (i 2).val / 128) * 4 + (i 1).val / 512, hT⟩ (2 : Fin 3) * 128 + 128
    omega

/-- The result array after the region is `G1` of the projected array. -/
theorem arr1_eq (hpay : PayHyp) (V : 𝕍) (c : Dev nD) :
    (dat1 V c).arrAt 3 cfg1.N = G1 (V c main_v2) :=
  (dat1 V c).arrAt_eq_of_cover 3 (G1 (V c main_v2)) (fun t _ => flushed1_eq hpay V c t) cover1

/-- After the region the result array holds, at (n, s, c), head c / 64, column c % 64, of the attention over the
    projected rows — given that the stored block is, lane by lane, the attention of its head over the loaded blocks. -/
theorem final1 (hpay : ∀ (q : Vec Ideal S1x512x128 .f32) (k v : Vec Ideal S1x2048x128 .f32) (r : Fin 512) (hh : Fin 2) (d : Fin 64),
        k1_pay1 (F := Ideal) (k1_pay5 q k v) (k1_pay6 v) (k1_pay7 q k) (ix3 (0 : Fin 1) r (lane1 hh d))
          = Cert.Attn.head (fun d' => q (ix3 (0 : Fin 1) r (lane1 hh d'))) (fun j d' => k (ix3 (0 : Fin 1) j (lane1 hh d'))) (fun j d' => v (ix3 (0 : Fin 1) j (lane1 hh d'))) d)
    (V : (c : Dev nD) → (b : Ref sig .tc) → Buf (Elt Ideal) ((c : Thread nD τ).loc b)) (c : Dev nD) (n : Fin 4) (s : Fin 2048) (col : Fin 768) :
    ((Cert.KernelIdeal.Hand.dat1 V c).arrAt 3 cfg1.N : S4x2048x768.Idx → EReal) (ix3 n s col)
      = Cert.Attn.attn (fun n s e => (V c main_v2 : S4x2048x2304.Idx → EReal) (ix3 n s e)) n s ⟨col.val / 64, by have := col.isLt; omega⟩ ⟨col.val % 64, Nat.mod_lt _ (by decide)⟩ := by
  rw [arr1_eq hpay]
  rfl

end Cert.KernelIdeal.Val

end
-- ==== Proof.Pay1.lean ====
/-
  The attention kernel's stored value, read at an index, on the extended reals.

  The kernel loads a query block of 512 rows and a key and a value block of 2048 rows, each of 128 lanes: two heads
  of 64 lanes side by side. On each head's 64 lanes it runs the same chain: the product of the query rows with the
  transposed key rows, times 1/8; each row's maximum, folded from −∞; the exponential of the row shifted by its
  maximum; each row's sum; the quotient; and the product with the value rows. The two heads' 512 × 64 outputs are
  laid side by side again and stored as one 1 × 512 × 128 block.

  Here each operation of the chain is read at an index (a product as a sum over the contracted axis, a row
  reduction as a sum or a fold of max over the row, a column cast and broadcast along the row as the column's
  entry, a slice and a concatenation as a shift of the lane), the chain is read as one head's attention
  (Proof/Spec.lean), and the stored block at row r, lane 64·h + d, is head h's attention of query row r at column d.
-/
import proofs.«155869_j9405978378411_2_alg».proof.Proof.Gen.KernelIdeal.Skeleton
import proofs.«155869_j9405978378411_2_alg».proof.Proof.Spec
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx

/-! ## The single operations of the chain, read at an index -/

theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- The score product contracts the 64 columns of a query row with those of a key row. -/
theorem qk_apply {φ₁ φ₂ : FTy} (a : FVec Ideal S512x64 φ₁) (b : FVec Ideal S2048x64 φ₂) (r : Fin 512) (j : Fin 2048) :
    matmul (F := Ideal) dot_S512x64_S2048x64_S512x2048_1_1_0_0_n_n none a b (constant (F := Ideal) S512x2048 .f32 0x00000000#32) (ix2 r j)
      = ∑ d : Fin 64, a (ix2 r d) * b (ix2 j d) := by
  refine (Ideal.matmul_constant_zero_apply dot_S512x64_S2048x64_S512x2048_1_1_0_0_n_n none a b (ix2 r j)).trans ?_
  rw [← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r j) ((contrEquiv1 dot_S512x64_S2048x64_S512x2048_1_1_0_0_n_n 64 rfl rfl).symm d) = ix2 r d :=
    funext fun ax => Fin.ext (by
      match ax with
      | ⟨0, _⟩ => exact qk_lhs0 _ _
      | ⟨1, _⟩ => exact (qk_lhs1 _ _).trans hd)
  have er : dot_S512x64_S2048x64_S512x2048_1_1_0_0_n_n.rhsIdx (ix2 r j) ((contrEquiv1 dot_S512x64_S2048x64_S512x2048_1_1_0_0_n_n 64 rfl rfl).symm d) = ix2 j d :=
    funext fun ax => Fin.ext (by
      match ax with
      | ⟨0, _⟩ => exact qk_rhs0 _ _
      | ⟨1, _⟩ => exact (qk_rhs1 _ _).trans hd)
  rw [el, er]

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output product contracts the 2048 weights of a row with a column of the value rows. -/
theorem pv_apply {φ₁ φ₂ : FTy} (a : FVec Ideal S512x2048 φ₁) (b : FVec Ideal S2048x64 φ₂) (r : Fin 512) (d : Fin 64) :
    matmul (F := Ideal) dot_S512x2048_S2048x64_S512x64_1_0_0_1_n_n none a b (constant (F := Ideal) S512x64 .f32 0x00000000#32) (ix2 r d)
      = ∑ j : Fin 2048, a (ix2 r j) * b (ix2 j d) := by
  refine (Ideal.matmul_constant_zero_apply dot_S512x2048_S2048x64_S512x64_1_0_0_1_n_n none a b (ix2 r d)).trans ?_
  rw [← Equiv.sum_comp (contrEquiv1 dot_S512x2048_S2048x64_S512x64_1_0_0_1_n_n 2048 rfl rfl).symm]
  refine Finset.sum_congr rfl fun j _ => ?_
  have hj := contrEquiv1_symm_val dot_S512x2048_S2048x64_S512x64_1_0_0_1_n_n 2048 rfl rfl j
  have el : dot_S512x2048_S2048x64_S512x64_1_0_0_1_n_n.lhsIdx (ix2 r d) ((contrEquiv1 dot_S512x2048_S2048x64_S512x64_1_0_0_1_n_n 2048 rfl rfl).symm j) = ix2 r j :=
    funext fun ax => Fin.ext (by
      match ax with
      | ⟨0, _⟩ => exact pv_lhs0 _ _
      | ⟨1, _⟩ => exact (pv_lhs1 _ _).trans hj)
  have er : dot_S512x2048_S2048x64_S512x64_1_0_0_1_n_n.rhsIdx (ix2 r d) ((contrEquiv1 dot_S512x2048_S2048x64_S512x64_1_0_0_1_n_n 2048 rfl rfl).symm j) = ix2 j d :=
    funext fun ax => Fin.ext (by
      match ax with
      | ⟨0, _⟩ => exact (pv_rhs0 _ _).trans hj
      | ⟨1, _⟩ => exact pv_rhs1 _ _)
  rw [el, er]

/-- The reduced row index r with column k put back is (r, k). -/
theorem lift_row (h : S512x2048.Reduces [1] S512) (r : Fin 512) (k : Fin (S512x2048.size 1)) :
    h.lift (ix1 r) k = ix2 r (⟨k.val, k.isLt⟩ : Fin 2048) := by
  funext c; apply Fin.ext
  fin_cases c <;> rfl

/-- A row's sum over its 2048 columns. -/
theorem rowSum_apply (x : FVec Ideal S512x2048 .f32) (h : S512x2048.Reduces [1] S512) (hφ : FKind.Formats .f32)
    (hacc : (0x00000000#32 : BitVec 32) = FKind.add.neutral .f32 hφ) (r : Fin 512) :
    multiReduction (F := Ideal) .add [1] S512 x 0x00000000#32 h hφ hacc (ix1 r) = ∑ j : Fin 2048, x (ix2 r j) := by
  refine (Ideal.multiReduction_add_single x _ h hφ hacc (ix1 r)).trans ?_
  exact Finset.sum_congr rfl fun k _ => congrArg x (lift_row h r k)

/-- A row's maximum over its 2048 columns, folded from −∞. -/
theorem rowMax_apply (x : FVec Ideal S512x2048 .f32) (h : S512x2048.Reduces [1] S512) (hφ : FKind.Formats .f32)
    (hacc : (0xFF800000#32 : BitVec 32) = FKind.maximumf.neutral .f32 hφ) (r : Fin 512) :
    multiReduction (F := Ideal) .maximumf [1] S512 x 0xFF800000#32 h hφ hacc (ix1 r) = Cert.Attn.rowMax fun j => x (ix2 r j) := by
  refine (Ideal.multiReduction_maximumf_single x _ h hφ hacc (ix1 r)).trans ?_
  have hf : (x ∘ h.lift (ix1 r)) = fun j : Fin 2048 => x (ix2 r j) := funext fun k => congrArg x (lift_row h r k)
  unfold Cert.Attn.rowMax
  exact congrArg (fun f => Finset.fold max (Ideal.ofBits .f32 0xFF800000#32) f (Finset.univ : Finset (Fin 2048))) hf

/-- A column of 512 entries, cast to a 512 × 1 array and broadcast along 2048 columns, reads its entry r on row r. -/
theorem keepdims_apply {α : Type} (v : S512.Idx → α) (h1 : S512.ShapeCasts S512x1) (h2 : S512x1.Broadcasts S512x2048)
    (r : Fin 512) (j : Fin 2048) :
    broadcastTo S512x2048 (shapeCast S512x1 v h1) h2 (ix2 r j) = v (ix1 r) := by
  refine (broadcastTo_apply _ h2 (ix2 r j) (ix2 r (0 : Fin 1)) fun ax => ?_).trans
    (shapeCast_apply v h1 (ix2 r (0 : Fin 1)) (ix1 r) ?_)
  · match ax with
    | ⟨0, _⟩ => rfl
    | ⟨1, _⟩ => rfl
  · rw [Shape.rowMajor_val_one, Shape.rowMajor_val_two]
    show r.val = r.val * 1 + 0
    omega

/-! ## One head's chain

Both heads run the same operations on different 64-lane slices: the scores, their shifted exponentials, and the
normalised weighted sum of the value rows. -/

/-- The scaled scores of every query row against every key row: the kernel's operations from the two truncations to the product with 1/8. -/
def scores (qh : FVec Ideal S512x64 .f32) (kh : FVec Ideal S2048x64 .f32) : FVec Ideal S512x2048 .f32 :=
  have v9 : FVec Ideal S512x64 .bf16 := truncf .bf16 qh bitsLt_bf16_f32
  have v10 : FVec Ideal S2048x64 .bf16 := truncf .bf16 kh bitsLt_bf16_f32
  have cst : FVec Ideal S512x2048 .f32 := constant S512x2048 .f32 0x00000000#32
  have v11 : FVec Ideal S512x2048 .f32 := matmul dot_S512x64_S2048x64_S512x2048_1_1_0_0_n_n none v9 v10 cst
  have cst_8 : Ideal .f32 := Scalar.ofBits .f32 0x3E000000#32
  have v12 : FVec Ideal S512x2048 .f32 := broadcast S512x2048 cst_8
  have v13 : FVec Ideal S512x2048 .f32 := mulf v11 v12
  v13

/-- The exponentials of the scores shifted by their row's maximum: the kernel's operations from the row maximum to the exponential. -/
def expOf (s : FVec Ideal S512x2048 .f32) : FVec Ideal S512x2048 .f32 :=
  have v14 : FVec Ideal S512 .f32 := multiReduction .maximumf [1] S512 s 0xFF800000#32 reduces_S512x2048_S512 (.inl rfl) rfl
  have v15 : FVec Ideal S512x1 .f32 := shapeCast S512x1 v14 shapeCasts_S512_S512x1
  have v16 : FVec Ideal S512x2048 .f32 := broadcastTo S512x2048 v15 broadcasts_S512x1_S512x2048
  have v17 : FVec Ideal S512x2048 .f32 := subf s v16
  have v18 : FVec Ideal S512x2048 .f32 := exp v17
  v18

/-- A head's unnormalised weights. -/
def expScores (qh : FVec Ideal S512x64 .f32) (kh : FVec Ideal S2048x64 .f32) : FVec Ideal S512x2048 .f32 :=
  expOf (scores qh kh)

/-- A head's output from its unnormalised weights and value rows: the kernel's operations from the row sum to the second product. -/
def headOut (e : FVec Ideal S512x2048 .f32) (vh : FVec Ideal S2048x64 .f32) : FVec Ideal S512x64 .f32 :=
  have v19 : FVec Ideal S512 .f32 := multiReduction .add [1] S512 e 0x00000000#32 reduces_S512x2048_S512 (.inl rfl) rfl
  have v20 : FVec Ideal S512x1 .f32 := shapeCast S512x1 v19 shapeCasts_S512_S512x1
  have v21 : FVec Ideal S512x2048 .f32 := broadcastTo S512x2048 v20 broadcasts_S512x1_S512x2048
  have v22 : FVec Ideal S512x2048 .f32 := divf e v21
  have v23 : FVec Ideal S512x2048 .bf16 := truncf .bf16 v22 bitsLt_bf16_f32
  have v24 : FVec Ideal S2048x64 .bf16 := truncf .bf16 vh bitsLt_bf16_f32
  have cst_11 : FVec Ideal S512x64 .f32 := constant S512x64 .f32 0x00000000#32
  have v25 : FVec Ideal S512x64 .f32 := matmul dot_S512x2048_S2048x64_S512x64_1_0_0_1_n_n none v23 v24 cst_11
  v25

theorem scores_apply (qh : FVec Ideal S512x64 .f32) (kh : FVec Ideal S2048x64 .f32) (r : Fin 512) (j : Fin 2048) :
    scores qh kh (ix2 r j) = Cert.Attn.score (fun d => qh (ix2 r d)) (fun j d => kh (ix2 j d)) j := by
  unfold scores Cert.Attn.score
  show matmul (F := Ideal) dot_S512x64_S2048x64_S512x2048_1_1_0_0_n_n none (truncf .bf16 qh bitsLt_bf16_f32) (truncf .bf16 kh bitsLt_bf16_f32)
      (constant (F := Ideal) S512x2048 .f32 0x00000000#32) (ix2 r j) * Ideal.ofBits .f32 0x3E000000#32 = _
  rw [qk_apply]
  rfl

theorem expOf_apply (s : FVec Ideal S512x2048 .f32) (r : Fin 512) (j : Fin 2048) :
    expOf s (ix2 r j) = Cert.Attn.weight (fun j => s (ix2 r j)) j := by
  unfold expOf Cert.Attn.weight
  show Ideal.exp (s (ix2 r j) - broadcastTo S512x2048 (shapeCast S512x1
      (multiReduction (F := Ideal) .maximumf [1] S512 s 0xFF800000#32 reduces_S512x2048_S512 (.inl rfl) rfl) shapeCasts_S512_S512x1)
      broadcasts_S512x1_S512x2048 (ix2 r j)) = _
  rw [keepdims_apply]
  exact congrArg (fun m => Ideal.exp (s (ix2 r j) - m)) (rowMax_apply s reduces_S512x2048_S512 (.inl rfl) rfl r)

theorem expScores_apply (qh : FVec Ideal S512x64 .f32) (kh : FVec Ideal S2048x64 .f32) (r : Fin 512) (j : Fin 2048) :
    expScores qh kh (ix2 r j) = Cert.Attn.weight (Cert.Attn.score (fun d => qh (ix2 r d)) (fun j d => kh (ix2 j d))) j :=
  (expOf_apply (scores qh kh) r j).trans
    (congrArg (fun s => Cert.Attn.weight s j) (funext fun j' => scores_apply qh kh r j'))

theorem headOut_apply (e : FVec Ideal S512x2048 .f32) (vh : FVec Ideal S2048x64 .f32) (r : Fin 512) (d : Fin 64) :
    headOut e vh (ix2 r d) = ∑ j : Fin 2048, Ideal.div (e (ix2 r j)) (∑ j' : Fin 2048, e (ix2 r j')) * vh (ix2 j d) := by
  unfold headOut
  refine (pv_apply _ _ r d).trans ?_
  refine Finset.sum_congr rfl fun j _ => ?_
  show Ideal.div (e (ix2 r j)) (broadcastTo S512x2048 (shapeCast S512x1
      (multiReduction (F := Ideal) .add [1] S512 e 0x00000000#32 reduces_S512x2048_S512 (.inl rfl) rfl) shapeCasts_S512_S512x1)
      broadcasts_S512x1_S512x2048 (ix2 r j)) * vh (ix2 j d) = _
  rw [keepdims_apply]
  exact congrArg (fun m => Ideal.div (e (ix2 r j)) m * vh (ix2 j d)) (rowSum_apply e reduces_S512x2048_S512 (.inl rfl) rfl r)

/-- One head, end to end: its output row is the attention of its query row over its key and value rows. -/
theorem chain_apply (qh : FVec Ideal S512x64 .f32) (kh vh : FVec Ideal S2048x64 .f32) (r : Fin 512) (d : Fin 64) :
    headOut (expScores qh kh) vh (ix2 r d)
      = Cert.Attn.head (fun d' => qh (ix2 r d')) (fun j d' => kh (ix2 j d')) (fun j d' => vh (ix2 j d')) d := by
  refine (headOut_apply _ _ r d).trans ?_
  unfold Cert.Attn.head
  simp only [expScores_apply]

/-! ## The kernel's store -/

/-- lane 64·hh + d of a 128-lane block -/
def lane (hh : Fin 2) (d : Fin 64) : Fin 128 := ⟨64 * hh.val + d.val, by have := hh.isLt; have := d.isLt; omega⟩

/-- The 64 lanes from lane o of the query block, read at (r, d): the block at lane o + d of row r. -/
theorem sliceQ_apply (q : Vec Ideal S1x512x128 .f32) (o : Nat) (h : S512x128.Slices ![0, o] S512x64) (r : Fin 512) (d : Fin 64)
    (c : Fin 128) (hc : c.val = o + d.val) :
    extractStridedSlice S512x64 ![0, o] (k1_pay2 (F := Ideal) q) h (ix2 r d) = q (ix3 (0 : Fin 1) r c) :=
  (slice2_axis1_apply o (k1_pay2 (F := Ideal) q) h r d c hc).trans
    (shapeCast_1ab_ab_apply q shapeCasts_S1x512x128_S512x128 r c)

/-- The same for the key block. -/
theorem sliceK_apply (k : Vec Ideal S1x2048x128 .f32) (o : Nat) (h : S2048x128.Slices ![0, o] S2048x64) (j : Fin 2048) (d : Fin 64)
    (c : Fin 128) (hc : c.val = o + d.val) :
    extractStridedSlice S2048x64 ![0, o] (k1_pay3 (F := Ideal) k) h (ix2 j d) = k (ix3 (0 : Fin 1) j c) :=
  (slice2_axis1_apply o (k1_pay3 (F := Ideal) k) h j d c hc).trans
    (shapeCast_1ab_ab_apply k shapeCasts_S1x2048x128_S2048x128 j c)

/-- The same for the value block. -/
theorem sliceV_apply (v : Vec Ideal S1x2048x128 .f32) (o : Nat) (h : S2048x128.Slices ![0, o] S2048x64) (j : Fin 2048) (d : Fin 64)
    (c : Fin 128) (hc : c.val = o + d.val) :
    extractStridedSlice S2048x64 ![0, o] (k1_pay4 (F := Ideal) v) h (ix2 j d) = v (ix3 (0 : Fin 1) j c) :=
  (slice2_axis1_apply o (k1_pay4 (F := Ideal) v) h j d c hc).trans
    (shapeCast_1ab_ab_apply v shapeCasts_S1x2048x128_S2048x128 j c)

/-- A head's output depends on its three arguments only through their entries. -/
theorem head_congr {q q' : Fin 64 → EReal} {K K' V V' : Fin 2048 → Fin 64 → EReal} (hq : ∀ d, q d = q' d)
    (hK : ∀ j d, K j d = K' j d) (hV : ∀ j d, V j d = V' j d) (d : Fin 64) :
    Cert.Attn.head q K V d = Cert.Attn.head q' K' V' d := by
  have e1 : q = q' := funext hq
  have e2 : K = K' := funext fun j => funext (hK j)
  have e3 : V = V' := funext fun j => funext (hV j)
  rw [e1, e2, e3]

/-- The chain on the 64 lanes of head hh (lane offset o = 64·hh) of the three blocks is that head's attention. -/
theorem headAt_apply (q : Vec Ideal S1x512x128 .f32) (k v : Vec Ideal S1x2048x128 .f32) (hh : Fin 2) (o : Nat) (ho : o = 64 * hh.val)
    (hq : S512x128.Slices ![0, o] S512x64) (hk : S2048x128.Slices ![0, o] S2048x64) (r : Fin 512) (d : Fin 64) :
    headOut (expScores (extractStridedSlice S512x64 ![0, o] (k1_pay2 (F := Ideal) q) hq)
        (extractStridedSlice S2048x64 ![0, o] (k1_pay3 (F := Ideal) k) hk))
      (extractStridedSlice S2048x64 ![0, o] (k1_pay4 (F := Ideal) v) hk) (ix2 r d)
      = Cert.Attn.head (fun d' => q (ix3 (0 : Fin 1) r (lane hh d'))) (fun j d' => k (ix3 (0 : Fin 1) j (lane hh d')))
          (fun j d' => v (ix3 (0 : Fin 1) j (lane hh d'))) d :=
  (chain_apply _ _ _ r d).trans
    (head_congr (fun d' => sliceQ_apply q o hq r d' (lane hh d') (by subst ho; rfl))
      (fun j d' => sliceK_apply k o hk j d' (lane hh d') (by subst ho; rfl))
      (fun j d' => sliceV_apply v o hk j d' (lane hh d') (by subst ho; rfl)) d)

/-- Head 0's payload is the chain on the slices at lane 0. -/
theorem pay5_eq (q : Vec Ideal S1x512x128 .f32) (k v : Vec Ideal S1x2048x128 .f32) :
    k1_pay5 (F := Ideal) q k v
      = headOut (expScores (extractStridedSlice S512x64 ![0, 0] (k1_pay2 (F := Ideal) q) slices_S512x128_o0_0_S512x64)
          (extractStridedSlice S2048x64 ![0, 0] (k1_pay3 (F := Ideal) k) slices_S2048x128_o0_0_S2048x64))
        (extractStridedSlice S2048x64 ![0, 0] (k1_pay4 (F := Ideal) v) slices_S2048x128_o0_0_S2048x64) := rfl

/-- Head 1's weights are the first half of the chain on the slices at lane 64. -/
theorem pay7_eq (q : Vec Ideal S1x512x128 .f32) (k : Vec Ideal S1x2048x128 .f32) :
    k1_pay7 (F := Ideal) q k
      = expScores (extractStridedSlice S512x64 ![0, 64] (k1_pay2 (F := Ideal) q) slices_S512x128_o0_64_S512x64)
          (extractStridedSlice S2048x64 ![0, 64] (k1_pay3 (F := Ideal) k) slices_S2048x128_o0_64_S2048x64) := rfl

/-- Head 1's value rows. -/
theorem pay6_eq (v : Vec Ideal S1x2048x128 .f32) :
    k1_pay6 (F := Ideal) v = extractStridedSlice S2048x64 ![0, 64] (k1_pay4 (F := Ideal) v) slices_S2048x128_o0_64_S2048x64 := rfl

/-- The stored value: head 0's output beside the second half of the chain on head 1's weights and value rows. -/
theorem pay1_eq (v25 : FVec Ideal S512x64 .f32) (v28 : FVec Ideal S2048x64 .f32) (v38 : FVec Ideal S512x2048 .f32) :
    k1_pay1 (F := Ideal) v25 v28 v38
      = shapeCast S1x512x128 (concatenate S512x128 1 [⟨S512x64, v25⟩, ⟨S512x64, headOut v38 v28⟩] concatenates_S512x64_S512x64_S512x128_d1)
          shapeCasts_S512x128_S1x512x128 := rfl

/-- The stored block at row r, lane 64·hh + d, is head hh's attention of query row r over the key and value rows. -/
theorem pay1_apply (q : Vec Ideal S1x512x128 .f32) (k v : Vec Ideal S1x2048x128 .f32) (r : Fin 512) (hh : Fin 2) (d : Fin 64) :
    k1_pay1 (F := Ideal) (k1_pay5 q k v) (k1_pay6 v) (k1_pay7 q k) (ix3 (0 : Fin 1) r (lane hh d))
      = Cert.Attn.head (fun d' => q (ix3 (0 : Fin 1) r (lane hh d'))) (fun j d' => k (ix3 (0 : Fin 1) j (lane hh d'))) (fun j d' => v (ix3 (0 : Fin 1) j (lane hh d'))) d := by
  refine (congrFun (pay1_eq _ _ _) _).trans ?_
  refine (shapeCast_ab_1ab_apply _ shapeCasts_S512x128_S1x512x128 (0 : Fin 1) r (lane hh d)).trans ?_
  match hh with
  | ⟨0, h0⟩ =>
    refine (concatenate_pair_apply_left 1 _ _ concatenates_S512x64_S512x64_S512x128_d1 (ix2 r (lane ⟨0, h0⟩ d)) rfl (ix2 r d)
      (fun b => ?_)).trans ?_
    · match b with
      | ⟨0, _⟩ => rfl
      | ⟨1, _⟩ => show d.val = 64 * 0 + d.val; omega
    · refine (congrFun (pay5_eq q k v) _).trans ?_
      exact headAt_apply q k v ⟨0, h0⟩ 0 rfl _ _ r d
  | ⟨1, h1⟩ =>
    refine (concatenate_pair_apply_right 1 _ _ concatenates_S512x64_S512x64_S512x128_d1 (ix2 r (lane ⟨1, h1⟩ d)) rfl rfl (ix2 r d)
      (fun b hb => ?_) ?_).trans ?_
    · match b with
      | ⟨0, _⟩ => rfl
      | ⟨1, _⟩ => exact absurd rfl hb
    · show d.val + 64 = 64 * 1 + d.val; omega
    · rw [pay7_eq, pay6_eq]
      exact headAt_apply q k v ⟨1, h1⟩ 64 rfl _ _ r d

end Cert.KernelIdeal.PayValue

end
-- ==== Proof.RefValue.lean ====
/-
  The reference program computes the specification.

  The reference is written as a chain of array operations: a matrix product and a bias (the projection), three
  slices of the projected rows (queries, keys, values), a reshape of each 768-wide part into 12 heads of width 64
  and a transpose that brings the head axis forward, a batched product of queries with keys, a scaling, a row
  maximum, a shift, an exponential, a row sum, a division, a batched product with the values, and the transpose and
  reshape back. Each stage is read here at literal coordinates; the reshape and transpose stages are index
  arithmetic (a flat position 64·h + d inside a 768-wide part), and what remains is, term by term, the
  specification's formula.
-/
import proofs.«155869_j9405978378411_2_alg».proof.Proof.Gen.ReferenceIdeal.Read
import proofs.«155869_j9405978378411_2_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

variable (x0 : (⟨S4x2048x768, .f32⟩ : BufTy).Contents (Elt Ideal)) (x1 : (⟨S768x2304, .f32⟩ : BufTy).Contents (Elt Ideal))
  (x2 : (⟨S2304, .f32⟩ : BufTy).Contents (Elt Ideal))

/-- The reference's projected array at literal coordinates. -/
def P (n : Fin 4) (s : Fin 2048) (e : Fin 2304) : EReal := val_main_v3 (F := Ideal) x0 x1 x2 (ix3 n s e)

/-- The projection stage is the specification's projection: the row's dot product with the weight column, plus the bias. -/
theorem proj_at (n : Fin 4) (s : Fin 2048) (e : Fin 2304) :
    P x0 x1 x2 n s e = Cert.Attn.proj (fun n s k => x0 (ix3 n s k)) (fun k e => x1 (ix2 k e)) (fun e => x2 (ix1 e)) n s e := by
  unfold P Cert.Attn.proj
  rw [val_main_v3_apply, val_main_v0_apply, val_main_v2_apply, val_main_v1_apply, Ideal.addf_def]
  have e0 : ∀ k : Fin 768, lidx_main_v0 (ix3 n s e) k = ix3 n s k := fun k => funext fun a => by
    match a with | ⟨0, _⟩ => rfl | ⟨1, _⟩ => rfl | ⟨2, _⟩ => rfl
  have e1 : ∀ k : Fin 768, ridx_main_v0 (ix3 n s e) k = ix2 k e := fun k => funext fun a => by
    match a with | ⟨0, _⟩ => rfl | ⟨1, _⟩ => rfl
  have e2 : idx_main_v1 (idx_main_v2 (ix3 n s e)) = ix1 e := funext fun a => by
    match a with | ⟨0, _⟩ => rfl
  rw [e2]
  exact congrArg (· + x2 (ix1 e)) (Finset.sum_congr rfl fun k _ => by rw [e0, e1])

/-- The query entry (n, h, s, d) is the projected row's column 64·h + d of the first part: the slice keeps columns
    0..767, the reshape reads column 64·h + d as (h, d), the transpose swaps the row and head axes. -/
theorem q_at (n : Fin 4) (h : Fin 12) (s : Fin 2048) (d : Fin 64) :
    val_main_v8 (F := Ideal) x0 x1 x2 (ix4 n h s d) = P x0 x1 x2 n s (Cert.Attn.col 0 h d) := by
  unfold P
  rw [val_main_v8_apply, val_main_v7_apply, val_main_v4_apply]
  refine congrArg (val_main_v3 (F := Ideal) x0 x1 x2) (funext fun a => Fin.ext ?_)
  have hn := n.isLt; have hh := h.isLt; have hs := s.isLt; have hd := d.isLt
  match a with
  | ⟨0, _⟩ => show (((n.val * 2048 + s.val) * 12 + h.val) * 64 + d.val) / 1572864 = n.val; omega
  | ⟨1, _⟩ => show (((n.val * 2048 + s.val) * 12 + h.val) * 64 + d.val) / 768 % 2048 = s.val; omega
  | ⟨2, _⟩ => show (((n.val * 2048 + s.val) * 12 + h.val) * 64 + d.val) % 768 = 768 * 0 + 64 * h.val + d.val; omega

/-- The key entry (n, h, s, d) is column 768 + 64·h + d of the projected row. -/
theorem k_at (n : Fin 4) (h : Fin 12) (s : Fin 2048) (d : Fin 64) :
    val_main_v10 (F := Ideal) x0 x1 x2 (ix4 n h s d) = P x0 x1 x2 n s (Cert.Attn.col 1 h d) := by
  unfold P
  rw [val_main_v10_apply, val_main_v9_apply, val_main_v5_apply]
  refine congrArg (val_main_v3 (F := Ideal) x0 x1 x2) (funext fun a => Fin.ext ?_)
  have hn := n.isLt; have hh := h.isLt; have hs := s.isLt; have hd := d.isLt
  match a with
  | ⟨0, _⟩ => show (((n.val * 2048 + s.val) * 12 + h.val) * 64 + d.val) / 1572864 = n.val; omega
  | ⟨1, _⟩ => show (((n.val * 2048 + s.val) * 12 + h.val) * 64 + d.val) / 768 % 2048 = s.val; omega
  | ⟨2, _⟩ => show 768 + (((n.val * 2048 + s.val) * 12 + h.val) * 64 + d.val) % 768 = 768 * 1 + 64 * h.val + d.val; omega

/-- The value entry (n, h, s, d) is column 1536 + 64·h + d of the projected row. -/
theorem v_at (n : Fin 4) (h : Fin 12) (s : Fin 2048) (d : Fin 64) :
    val_main_v12 (F := Ideal) x0 x1 x2 (ix4 n h s d) = P x0 x1 x2 n s (Cert.Attn.col 2 h d) := by
  unfold P
  rw [val_main_v12_apply, val_main_v11_apply, val_main_v6_apply]
  refine congrArg (val_main_v3 (F := Ideal) x0 x1 x2) (funext fun a => Fin.ext ?_)
  have hn := n.isLt; have hh := h.isLt; have hs := s.isLt; have hd := d.isLt
  match a with
  | ⟨0, _⟩ => show (((n.val * 2048 + s.val) * 12 + h.val) * 64 + d.val) / 1572864 = n.val; omega
  | ⟨1, _⟩ => show (((n.val * 2048 + s.val) * 12 + h.val) * 64 + d.val) / 768 % 2048 = s.val; omega
  | ⟨2, _⟩ => show 1536 + (((n.val * 2048 + s.val) * 12 + h.val) * 64 + d.val) % 768 = 768 * 2 + 64 * h.val + d.val; omega

/-- The queries, keys and values of sequence `n` and head `h`, as the specification reads them off the projected array. -/
abbrev Q (n : Fin 4) (h : Fin 12) (s : Fin 2048) : Fin 64 → EReal := fun d => P x0 x1 x2 n s (Cert.Attn.col 0 h d)
abbrev K (n : Fin 4) (h : Fin 12) : Fin 2048 → Fin 64 → EReal := fun j d => P x0 x1 x2 n j (Cert.Attn.col 1 h d)
abbrev V (n : Fin 4) (h : Fin 12) : Fin 2048 → Fin 64 → EReal := fun j d => P x0 x1 x2 n j (Cert.Attn.col 2 h d)

/-- The scaled batched product of queries with keys is the specification's score. -/
theorem score_at (n : Fin 4) (h : Fin 12) (s j : Fin 2048) :
    val_main_v15 (F := Ideal) x0 x1 x2 (ix4 n h s j) = Cert.Attn.score (Q x0 x1 x2 n h s) (K x0 x1 x2 n h) j := by
  unfold Cert.Attn.score
  rw [val_main_v15_apply, val_main_v13_apply, val_main_v14_apply, val_main_cst_apply, Ideal.mulf_def, Ideal.ofBits_def]
  have el : ∀ k : Fin 64, lidx_main_v13 (ix4 n h s j) k = ix4 n h s k := fun k => funext fun a => by
    match a with | ⟨0, _⟩ => rfl | ⟨1, _⟩ => rfl | ⟨2, _⟩ => rfl | ⟨3, _⟩ => rfl
  have er : ∀ k : Fin 64, ridx_main_v13 (ix4 n h s j) k = ix4 n h j k := fun k => funext fun a => by
    match a with | ⟨0, _⟩ => rfl | ⟨1, _⟩ => rfl | ⟨2, _⟩ => rfl | ⟨3, _⟩ => rfl
  exact congrArg (· * Ideal.ofBits .f32 0x3E000000#32)
    (Finset.sum_congr rfl fun k _ => by rw [el, er, q_at, k_at])

/-- The reduction's shape fact in the form that names the inserted index. -/
theorem reduces_d3 : S4x12x2048x2048.Reduces [3] S4x12x2048 := by decide

/-- Result index (n, h, s) with coordinate `k` put back on the reduced axis is (n, h, s, k). -/
theorem lift_ix4 (n : Fin 4) (h : Fin 12) (s : Fin 2048) (k : Fin (S4x12x2048x2048.size 3)) :
    reduces_d3.lift (ix3 n h s) k = ix4 n h s (⟨k.val, k.isLt⟩ : Fin 2048) := by
  funext c; apply Fin.ext
  match c with | ⟨0, _⟩ => rfl | ⟨1, _⟩ => rfl | ⟨2, _⟩ => rfl | ⟨3, _⟩ => rfl

/-- The row maximum stage: the fold of `max` from −∞ over the row of scores. -/
theorem max_at (n : Fin 4) (h : Fin 12) (s : Fin 2048) :
    val_main_v16 (F := Ideal) x0 x1 x2 (ix3 n h s) = Cert.Attn.rowMax (Cert.Attn.score (Q x0 x1 x2 n h s) (K x0 x1 x2 n h)) := by
  unfold val_main_v16 Cert.Attn.rowMax
  rw [Host.reduce_eq_fold_single FloatOps.maximumf _ _ reducesTo_S4x12x2048x2048_S4x12x2048_d3 reduces_d3 h_S_]
  have hf : (val_main_v15 (F := Ideal) x0 x1 x2 ∘ reduces_d3.lift (ix3 n h s))
      = fun k : Fin 2048 => Cert.Attn.score (Q x0 x1 x2 n h s) (K x0 x1 x2 n h) k :=
    funext fun k => (congrArg (val_main_v15 (F := Ideal) x0 x1 x2) (lift_ix4 n h s k)).trans (score_at x0 x1 x2 n h s _)
  exact congrArg (fun f => Finset.fold max (Ideal.ofBits .f32 0xFF800000#32) f (Finset.univ : Finset (Fin 2048))) hf

/-- The maximum with −∞ changes nothing, and the two broadcasts copy the row maximum along the row. -/
theorem maxb_at (n : Fin 4) (h : Fin 12) (s j : Fin 2048) :
    val_main_v20 (F := Ideal) x0 x1 x2 (ix4 n h s j) = Cert.Attn.rowMax (Cert.Attn.score (Q x0 x1 x2 n h s) (K x0 x1 x2 n h)) := by
  rw [val_main_v20_apply, val_main_v19_apply, val_main_v18_apply, val_main_v17_apply, val_main_cst_1_apply,
    Ideal.maximumf_def, Ideal.ofBits_def]
  have e : idx_main_v19 (idx_main_v20 (ix4 n h s j)) = ix3 n h s := funext fun a => by
    match a with | ⟨0, _⟩ => rfl | ⟨1, _⟩ => rfl | ⟨2, _⟩ => rfl
  rw [e, max_at]
  generalize Cert.Attn.rowMax (Cert.Attn.score (Q x0 x1 x2 n h s) (K x0 x1 x2 n h)) = y
  show max (Ideal.ofBits .f32 0xFF800000#32) y = y
  simp [Ideal.ofBits, Ideal.ieee]

/-- The exponential of the shifted score is the specification's weight. -/
theorem weight_at (n : Fin 4) (h : Fin 12) (s j : Fin 2048) :
    val_main_v22 (F := Ideal) x0 x1 x2 (ix4 n h s j) = Cert.Attn.weight (Cert.Attn.score (Q x0 x1 x2 n h s) (K x0 x1 x2 n h)) j := by
  unfold Cert.Attn.weight
  rw [val_main_v22_apply, val_main_v21_apply, Ideal.hostUnary_exp_def, Ideal.subf_def, score_at, maxb_at]

/-- The row sum of the weights, from zero. -/
theorem den_at (n : Fin 4) (h : Fin 12) (s : Fin 2048) :
    val_main_v23 (F := Ideal) x0 x1 x2 (ix3 n h s)
      = ∑ j : Fin 2048, Cert.Attn.weight (Cert.Attn.score (Q x0 x1 x2 n h s) (K x0 x1 x2 n h)) j := by
  rw [val_main_v23_apply, val_main_cst_2_apply, Ideal.ofBits_def, Ideal.ofBits_zero_f32, zero_add]
  refine Finset.sum_congr rfl fun k _ => ?_
  have e : idx_main_v23 (ix3 n h s) k = ix4 n h s k := funext fun a => by
    match a with | ⟨0, _⟩ => rfl | ⟨1, _⟩ => rfl | ⟨2, _⟩ => rfl | ⟨3, _⟩ => rfl
  rw [e, weight_at]

/-- The normalised weight. -/
theorem prob_at (n : Fin 4) (h : Fin 12) (s j : Fin 2048) :
    val_main_v26 (F := Ideal) x0 x1 x2 (ix4 n h s j)
      = Ideal.div (Cert.Attn.weight (Cert.Attn.score (Q x0 x1 x2 n h s) (K x0 x1 x2 n h)) j)
          (∑ j' : Fin 2048, Cert.Attn.weight (Cert.Attn.score (Q x0 x1 x2 n h s) (K x0 x1 x2 n h)) j') := by
  rw [val_main_v26_apply, val_main_v25_apply, val_main_v24_apply, Ideal.hostDivf_def, weight_at]
  have e : idx_main_v24 (idx_main_v25 (ix4 n h s j)) = ix3 n h s := funext fun a => by
    match a with | ⟨0, _⟩ => rfl | ⟨1, _⟩ => rfl | ⟨2, _⟩ => rfl
  rw [e, den_at]

/-- The batched product of the normalised weights with the values is the specification's head output. -/
theorem out_at (n : Fin 4) (h : Fin 12) (s : Fin 2048) (d : Fin 64) :
    val_main_v27 (F := Ideal) x0 x1 x2 (ix4 n h s d) = Cert.Attn.head (Q x0 x1 x2 n h s) (K x0 x1 x2 n h) (V x0 x1 x2 n h) d := by
  unfold Cert.Attn.head
  rw [val_main_v27_apply]
  refine Finset.sum_congr rfl fun k _ => ?_
  have el : lidx_main_v27 (ix4 n h s d) k = ix4 n h s k := funext fun a => by
    match a with | ⟨0, _⟩ => rfl | ⟨1, _⟩ => rfl | ⟨2, _⟩ => rfl | ⟨3, _⟩ => rfl
  have er : ridx_main_v27 (ix4 n h s d) k = ix4 n h k d := funext fun a => by
    match a with | ⟨0, _⟩ => rfl | ⟨1, _⟩ => rfl | ⟨2, _⟩ => rfl | ⟨3, _⟩ => rfl
  rw [el, er, prob_at, v_at]

/-- The transpose back and the reshape: entry (n, s, c) of the result is head c / 64, column c % 64. -/
theorem res_at (n : Fin 4) (s : Fin 2048) (c : Fin 768) :
    val_main_v29 (F := Ideal) x0 x1 x2 (ix3 n s c)
      = val_main_v27 (F := Ideal) x0 x1 x2
          (ix4 n (⟨c.val / 64, by have := c.isLt; omega⟩ : Fin 12) s (⟨c.val % 64, Nat.mod_lt _ (by decide)⟩ : Fin 64)) := by
  rw [val_main_v29_apply, val_main_v28_apply]
  refine congrArg (val_main_v27 (F := Ideal) x0 x1 x2) (funext fun a => Fin.ext ?_)
  have hn := n.isLt; have hs := s.isLt; have hc := c.isLt
  match a with
  | ⟨0, _⟩ => show ((n.val * 2048 + s.val) * 768 + c.val) / 1572864 = n.val; omega
  | ⟨1, _⟩ => show ((n.val * 2048 + s.val) * 768 + c.val) / 64 % 12 = c.val / 64; omega
  | ⟨2, _⟩ => show ((n.val * 2048 + s.val) * 768 + c.val) / 768 % 2048 = s.val; omega
  | ⟨3, _⟩ => show ((n.val * 2048 + s.val) * 768 + c.val) % 64 = c.val % 64; omega

/-- The result at literal coordinates is the specification's result there. -/
theorem ref_at (n : Fin 4) (s : Fin 2048) (c : Fin 768) :
    val_main_v29 (F := Ideal) x0 x1 x2 (ix3 n s c) = Cert.Attn.resultArr x0 x1 x2 (ix3 n s c) := by
  rw [res_at, out_at]
  have hP : P x0 x1 x2 = Cert.Attn.proj (fun n s k => x0 (ix3 n s k)) (fun k e => x1 (ix2 k e)) (fun e => x2 (ix1 e)) :=
    funext fun n => funext fun s => funext fun e => proj_at x0 x1 x2 n s e
  unfold Q K V
  rw [hP]
  rfl

/-- The reference's result array is the specification's result of its three argument arrays. -/
theorem ref_eq :
    Cert.ReferenceIdeal.Read.val_main_v29 (F := Ideal) x0 x1 x2 = Cert.Attn.resultArr x0 x1 x2 := by
  funext i
  obtain ⟨n, s, c, rfl⟩ : ∃ (n : Fin 4) (s : Fin 2048) (c : Fin 768), i = ix3 n s c := ⟨i 0, i 1, i 2, eq_ix3 i⟩
  exact ref_at x0 x1 x2 n s c

end Cert.ReferenceIdeal.RefValue

end
-- ==== Proof.Bridge.lean ====
/-
  The idealized kernel program's result array is the specification of its argument arrays, and with that the
  value claim.

  At the last boundary the result array holds what the attention region's write-backs leave: at (n, s, c) one
  head's softmax-weighted average of value rows, computed from the projected array the region was entered from.
  That array is the reshape of what the projection region left: at (n, s, e) the dot product of input row s of
  sequence n with weight column e, plus the bias at e — the input rows having been flattened for the projection
  and the projected rows unflattened after it, row n·2048 + s either way. So the result is the attention over the
  projection of the arguments, which is what the reference computes of the same arguments.
-/
import proofs.«155869_j9405978378411_2_alg».proof.Proof.KIHost
import proofs.«155869_j9405978378411_2_alg».proof.Proof.KIVal0
import proofs.«155869_j9405978378411_2_alg».proof.Proof.KIVal1
import proofs.«155869_j9405978378411_2_alg».proof.Proof.Pay1
import proofs.«155869_j9405978378411_2_alg».proof.Proof.RefValue
import proofs.«155869_j9405978378411_2_alg».proof.Proof.Spec
import proofs.«155869_j9405978378411_2_alg».proof.Defs
import proofs.«155869_j9405978378411_2_alg».proof.Proof.Gen.Pre_finite_inputs

noncomputable section

namespace Cert.KernelIdeal.Val

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (ρ : Dev nD → PrngReg)

/-- The projected array as the attention region finds it, entry by entry. -/
def projIn (c : Dev nD) : Fin 4 → Fin 2048 → Fin 2304 → EReal :=
  fun n s e => (V3 m ρ c main_v2 : S4x2048x2304.Idx → EReal) (ix3 n s e)

/-- It is the projection of the arguments. -/
theorem projIn_eq (c : Dev nD) :
    projIn m ρ c = Cert.Attn.proj (fun n s k => (m ((c : Thread nD τ).loc main_arg0) : S4x2048x768.Idx → EReal) (ix3 n s k))
      (fun k e => (m ((c : Thread nD τ).loc main_arg1) : S768x2304.Idx → EReal) (ix2 k e))
      (fun e => (m ((c : Thread nD τ).loc main_arg2) : S2304.Idx → EReal) (ix1 e)) := by
  funext n s e
  unfold projIn Cert.Attn.proj
  refine (V3_v2 m ρ c n s e).trans ?_
  refine (final0 (V1 m ρ) c _ e).trans ?_
  rw [V1_arg1 m ρ c, V1_arg2 m ρ c]
  refine congrArg (· + _) (Finset.sum_congr rfl fun k _ => ?_)
  exact congrArg (· * _) (V1_v0 m ρ c n s k)

/-- The result array at the last boundary is the specification of the arguments. -/
theorem result_eq (c : Dev nD) :
    (W4 m ρ c (Proc.devRef .tc main_v3) : S4x2048x768.Idx → EReal)
      = Cert.Attn.resultArr (m ((c : Thread nD τ).loc main_arg0)) (m ((c : Thread nD τ).loc main_arg1)) (m ((c : Thread nD τ).loc main_arg2)) := by
  funext i
  obtain ⟨n, s, col, rfl⟩ : ∃ (n : Fin 4) (s : Fin 2048) (col : Fin 768), i = ix3 n s col := ⟨i 0, i 1, i 2, eq_ix3 i⟩
  rw [W4_out m ρ c]
  refine (final1 (fun q k v r hh d => Cert.KernelIdeal.PayValue.pay1_apply q k v r hh d) (V3 m ρ) c n s col).trans ?_
  show Cert.Attn.attn (projIn m ρ c) n s _ _ = Cert.Attn.attn (Cert.Attn.proj _ _ _) n s _ _
  rw [projIn_eq]

end Cert.KernelIdeal.Val

namespace Cert.Proof.Value

open Idealize.ShloMosaic Idealize.ShloMosaic.TcCoe Idealize.SL.Sem

/-- From memories agreeing on the arguments both idealized programs run, end with their arguments unchanged, and
    end with equal results: each result array is the specification of the common arguments. -/
theorem algebraic : Cert.algebraic_KernelIdeal_ReferenceIdeal := by
  intro m ρ m' ρ' _ hagree
  refine ⟨fun c => Cert.Attn.resultArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run (Cert.KernelIdeal.defs (F := Ideal)) _ _).mono (fun r h c =>
      ⟨(h c _ (Cert.KernelIdeal.Hand.mem_uc Cert.KernelIdeal.main_v3 (by decide))).trans (Cert.KernelIdeal.Val.result_eq m ρ c),
       (h c _ (Cert.KernelIdeal.Hand.mem_uc Cert.KernelIdeal.main_arg0 (by decide))).trans (Cert.KernelIdeal.Hand.W4_arg0 m ρ c),
       (h c _ (Cert.KernelIdeal.Hand.mem_uc Cert.KernelIdeal.main_arg1 (by decide))).trans (Cert.KernelIdeal.Hand.W4_arg1 m ρ c),
       (h c _ (Cert.KernelIdeal.Hand.mem_uc Cert.KernelIdeal.main_arg2 (by decide))).trans (Cert.KernelIdeal.Hand.W4_arg2 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.ReferenceIdeal.RefValue.ref_eq, (hagree c).1, (hagree c).2.1, (hagree c).2.2]

end Cert.Proof.Value

end
-- ==== Proof.lean ====
/-
  The certificate's claim, assembled.

  The program projects every input row to queries, keys and values and applies full (non-causal) softmax attention
  per head. Proved here: the word-level kernel program, its reading on the extended reals, and the reference program
  each run to the end without a fault and leave their argument arrays unchanged; the reading on the extended reals
  rewrote no operation; and the idealized kernel program and the idealized reference, from memories agreeing on the
  arguments, end with equal result arrays — both equal, entry by entry, to one function of the arguments.
-/
import proofs.«155869_j9405978378411_2_alg».proof.Defs
import proofs.«155869_j9405978378411_2_alg».proof.Proof.Gen.Kernel
import proofs.«155869_j9405978378411_2_alg».proof.Proof.Gen.Kernel.Skeleton
import proofs.«155869_j9405978378411_2_alg».proof.Proof.Gen.Kernel.Launch
import proofs.«155869_j9405978378411_2_alg».proof.Proof.Gen.Kernel.Regions
import proofs.«155869_j9405978378411_2_alg».proof.Proof.Gen.Kernel.Points
import proofs.«155869_j9405978378411_2_alg».proof.Proof.Gen.KernelIdeal
import proofs.«155869_j9405978378411_2_alg».proof.Proof.Gen.KernelIdeal.Skeleton
import proofs.«155869_j9405978378411_2_alg».proof.Proof.Gen.KernelIdeal.Launch
import proofs.«155869_j9405978378411_2_alg».proof.Proof.Gen.KernelIdeal.Regions
import proofs.«155869_j9405978378411_2_alg».proof.Proof.Gen.KernelIdeal.Points
import proofs.«155869_j9405978378411_2_alg».proof.Proof.Gen.ReferenceIdeal
import proofs.«155869_j9405978378411_2_alg».proof.Proof.Gen.ReferenceIdeal.Run
import proofs.«155869_j9405978378411_2_alg».proof.Proof.Gen.ReferenceIdeal.Read
import proofs.«155869_j9405978378411_2_alg».proof.Proof.Gen.Pre_finite_inputs
import proofs.«155869_j9405978378411_2_alg».proof.Proof.Frames
import proofs.«155869_j9405978378411_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, Cert.Proof.Frames.preserves,
    Cert.Proof.Value.algebraic⟩

end Cert.Proof

end
